-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S500000x4 : Shape := ⟨2, ![500000, 4]⟩
abbrev S16x32 : Shape := ⟨2, ![16, 32]⟩
abbrev S32x32 : Shape := ⟨2, ![32, 32]⟩
abbrev S32x64 : Shape := ⟨2, ![32, 64]⟩
abbrev S64x128 : Shape := ⟨2, ![64, 128]⟩
abbrev S64x64 : Shape := ⟨2, ![64, 64]⟩
abbrev S128x128 : Shape := ⟨2, ![128, 128]⟩
abbrev S64x32 : Shape := ⟨2, ![64, 32]⟩
abbrev S128x64 : Shape := ⟨2, ![128, 64]⟩
abbrev S256x128 : Shape := ⟨2, ![256, 128]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S64x32 : S_.BroadcastsInDim S64x32 (![] : Fin 0 → Fin S64x32.rank)
  reducesTo_S64x32_S_d0_1 : S64x32.ReducesTo [0, 1] S_
  bcast_S_S128x64 : S_.BroadcastsInDim S128x64 (![] : Fin 0 → Fin S128x64.rank)
  reducesTo_S128x64_S_d0_1 : S128x64.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32x32 .f32) (main_arg13 : FVec F S64x32 .f32) (main_arg14 : FVec F S128x64 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S32x32 .f32 := Host.absf main_arg12
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S64x32 .f32 := Host.absf main_arg13
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_v63 main_v67

def fn_part2 {F : FTy → Type} [FloatOps F] (main_arg8 : FVec F S128x128 .f32) (main_arg9 : FVec F S64x32 .f32) (main_arg10 : FVec F S128x64 .f32) (main_arg11 : FVec F S256x128 .f32) (main_arg12 : FVec F S32x32 .f32) (main_arg13 : FVec F S64x32 .f32) (main_arg14 : FVec F S128x64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S64x128 .f32) (main_arg6 : FVec F S32x32 .f32) (main_arg7 : FVec F S64x64 .f32) (main_arg8 : FVec F S128x128 .f32) (main_arg9 : FVec F S64x32 .f32) (main_arg10 : FVec F S128x64 .f32) (main_arg11 : FVec F S256x128 .f32) (main_arg12 : FVec F S32x32 .f32) (main_arg13 : FVec F S64x32 .f32) (main_arg14 : FVec F S128x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S500000x16 .f32) (main_arg1 : IVec S500000x4 32) (main_arg2 : FVec F S16x32 .f32) (main_arg3 : FVec F S32x32 .f32) (main_arg4 : FVec F S32x64 .f32) (main_arg5 : FVec F S64x128 .f32) (main_arg6 : FVec F S32x32 .f32) (main_arg7 : FVec F S64x64 .f32) (main_arg8 : FVec F S128x128 .f32) (main_arg9 : FVec F S64x32 .f32) (main_arg10 : FVec F S128x64 .f32) (main_arg11 : FVec F S256x128 .f32) (main_arg12 : FVec F S32x32 .f32) (main_arg13 : FVec F S64x32 .f32) (main_arg14 : FVec F S128x64 .f32) : IVec S_ 1 :=
  let main_v0 : FVec F S500000x16 .f32 := Host.absf main_arg0
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S500000x16 : Shape := ⟨2, ![500000, 16]⟩
abbrev S500000x4 : Shape := ⟨2, ![500000, 4]⟩
abbrev S16x32 : Shape := ⟨2, ![16, 32]⟩
abbrev S32x32 : Shape := ⟨2, ![32, 32]⟩
abbrev S32x64 : Shape := ⟨2, ![32, 64]⟩
abbrev S64x128 : Shape := ⟨2, ![64, 128]⟩
abbrev S64x64 : Shape := ⟨2, ![64, 64]⟩
abbrev S128x128 : Shape := ⟨2, ![128, 128]⟩
abbrev S64x32 : Shape := ⟨2, ![64, 32]⟩
abbrev S128x64 : Shape := ⟨2, ![128, 64]⟩
abbrev S256x128 : Shape := ⟨2, ![256, 128]⟩
abbrev S_ : Shape := ⟨0, ![]⟩
abbrev S32x2x32 : Shape := ⟨3, ![32, 2, 32]⟩
abbrev S64x2x64 : Shape := ⟨3, ![64, 2, 64]⟩
abbrev S128x2x128 : Shape := ⟨3, ![128, 2, 128]⟩
abbrev S32x96 : Shape := ⟨2, ![32, 96]⟩
abbrev S64x192 : Shape := ⟨2, ![64, 192]⟩
abbrev S256x256 : Shape := ⟨2, ![256, 256]⟩
abbrev S500000x32 : Shape := ⟨2, ![500000, 32]⟩
abbrev S4000x16 : Shape := ⟨2, ![4000, 16]⟩
abbrev S4000x32 : Shape := ⟨2, ![4000, 32]⟩
abbrev S4000x96 : Shape := ⟨2, ![4000, 96]⟩
abbrev S4000x64 : Shape := ⟨2, ![4000, 64]⟩
abbrev S4000x192 : Shape := ⟨2, ![4000, 192]⟩
abbrev S4000x128 : Shape := ⟨2, ![4000, 128]⟩
abbrev S4000x256 : Shape := ⟨2, ![4000, 256]⟩

abbrev nBuf : Space → Nat
  | .hbm => 59
  | .vmem => 15
  | .smem => 0
  | _ => 0

abbrev bufTy : (tb : Table) → Fin (tcTables nBuf tb) → BufTy
  | .hbm, ⟨0, _⟩ => ⟨S500000x16, .f32⟩
  | .hbm, ⟨1, _⟩ => ⟨S500000x4, .i32⟩
  | .hbm, ⟨2, _⟩ => ⟨S16x32, .f32⟩
  | .hbm, ⟨3, _⟩ => ⟨S32x32, .f32⟩
  | .hbm, ⟨4, _⟩ => ⟨S32x64, .f32⟩
  | .hbm, ⟨5, _⟩ => ⟨S64x128, .f32⟩
  | .hbm, ⟨6, _⟩ => ⟨S32x32, .f32⟩
  | .hbm, ⟨7, _⟩ => ⟨S64x64, .f32⟩
  | .hbm, ⟨8, _⟩ => ⟨S128x128, .f32⟩
  | .hbm, ⟨9, _⟩ => ⟨S64x32, .f32⟩
  | .hbm, ⟨10, _⟩ => ⟨S128x64, .f32⟩
  | .hbm, ⟨11, _⟩ => ⟨S256x128, .f32⟩
  | .hbm, ⟨12, _⟩ => ⟨S32x32, .f32⟩
  | .hbm, ⟨13, _⟩ => ⟨S64x32, .f32⟩
  | .hbm, ⟨14, _⟩ => ⟨S128x64, .f32⟩
  | .hbm, ⟨15, _⟩ => ⟨S32x32, .i32⟩
  | .hbm, ⟨16, _⟩ => ⟨S32x32, .i32⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S32x32, .i1⟩
  | .hbm, ⟨21, _⟩ => ⟨S32x32, .f32⟩
  | .hbm, ⟨22, _⟩ => ⟨S32x2x32, .f32⟩
  | .hbm, ⟨23, _⟩ => ⟨S64x32, .f32⟩
  | .hbm, ⟨24, _⟩ => ⟨S64x64, .i32⟩
  | .hbm, ⟨25, _⟩ => ⟨S64x64, .i32⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S64x64, .f32⟩
  | .hbm, ⟨31, _⟩ => ⟨S64x2x64, .f32⟩
  | .hbm, ⟨32, _⟩ => ⟨S128x64, .f32⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S128x128, .f32⟩
  | .hbm, ⟨40, _⟩ => ⟨S128x2x128, .f32⟩
  | .hbm, ⟨41, _⟩ => ⟨S256x128, .f32⟩
  | .hbm, ⟨42, _⟩ => ⟨S16x32, .bf16⟩
  | .hbm, ⟨43, _⟩ => ⟨S32x32, .bf16⟩
  | .hbm, ⟨44, _⟩ => ⟨S32x96, .f32⟩
  | .hbm, ⟨45, _⟩ => ⟨S32x96, .bf16⟩
  | .hbm, ⟨46, _⟩ => ⟨S64x192, .f32⟩
  | .hbm, ⟨47, _⟩ => ⟨S64x192, .bf16⟩
  | .hbm, ⟨48, _⟩ => ⟨S128x128, .bf16⟩
  | .hbm, ⟨49, _⟩ => ⟨S64x64, .f32⟩
  | .hbm, ⟨50, _⟩ => ⟨S64x64, .bf16⟩
  | .hbm, ⟨51, _⟩ => ⟨S128x128, .f32⟩
  | .hbm, ⟨52, _⟩ => ⟨S128x128, .bf16⟩
  | .hbm, ⟨53, _⟩ => ⟨S256x256, .f32⟩
  | .hbm, ⟨54, _⟩ => ⟨S256x256, .bf16⟩
  | .hbm, ⟨55, _⟩ => ⟨S32x32, .bf16⟩
  | .hbm, ⟨56, _⟩ => ⟨S64x32, .bf16⟩
  | .hbm, ⟨57, _⟩ => ⟨S128x64, .bf16⟩
  | .hbm, ⟨58, _⟩ => ⟨S500000x32, .f32⟩
  | .local _ .vmem, ⟨0, _⟩ => ⟨S4000x16, .f32⟩
  | .local _ .vmem, ⟨1, _⟩ => ⟨S4000x16, .f32⟩
  | .local _ .vmem, ⟨2, _⟩ => ⟨S16x32, .bf16⟩
  | .local _ .vmem, ⟨3, _⟩ => ⟨S32x32, .bf16⟩
  | .local _ .vmem, ⟨4, _⟩ => ⟨S32x96, .bf16⟩
  | .local _ .vmem, ⟨5, _⟩ => ⟨S64x192, .bf16⟩
  | .local _ .vmem, ⟨6, _⟩ => ⟨S128x128, .bf16⟩
  | .local _ .vmem, ⟨7, _⟩ => ⟨S64x64, .bf16⟩
  | .local _ .vmem, ⟨8, _⟩ => ⟨S128x128, .bf16⟩
  | .local _ .vmem, ⟨9, _⟩ => ⟨S256x256, .bf16⟩
  | .local _ .vmem, ⟨10, _⟩ => ⟨S32x32, .bf16⟩
  | .local _ .vmem, ⟨11, _⟩ => ⟨S64x32, .bf16⟩
  | .local _ .vmem, ⟨12, _⟩ => ⟨S128x64, .bf16⟩
  | .local _ .vmem, ⟨13, _⟩ => ⟨S4000x32, .f32⟩
  | .local _ .vmem, ⟨14, _⟩ => ⟨S4000x32, .f32⟩
  | _, _ => ⟨S500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S32x32 : S_.BroadcastsInDim S32x32 (![] : Fin 0 → Fin S32x32.rank)
  bcast_S32x32_S32x2x32_0_2 : S32x32.BroadcastsInDim S32x2x32 (![0, 2] : Fin 2 → Fin S32x2x32.rank)
  shapeCasts_S32x2x32_S64x32 : S32x2x32.ShapeCasts S64x32
  bcast_S_S64x64 : S_.BroadcastsInDim S64x64 (![] : Fin 0 → Fin S64x64.rank)
  bcast_S64x64_S64x2x64_0_2 : S64x64.BroadcastsInDim S64x2x64 (![0, 2] : Fin 2 → Fin S64x2x64.rank)
  shapeCasts_S64x2x64_S128x64 : S64x2x64.ShapeCasts S128x64
  bcast_S_S128x128 : S_.BroadcastsInDim S128x128 (![] : Fin 0 → Fin S128x128.rank)
  bcast_S128x128_S128x2x128_0_2 : S128x128.BroadcastsInDim S128x2x128 (![0, 2] : Fin 2 → Fin S128x2x128.rank)
  shapeCasts_S128x2x128_S256x128 : S128x2x128.ShapeCasts S256x128
  bitsLt_bf16_f32 : FTy.bits .bf16 < FTy.bits .f32
  concatenates_S32x64_S32x32_S32x96_d1 : Shape.Concatenates [S32x64, S32x32] S32x96 1
  concatenates_S64x128_S64x64_S64x192_d1 : Shape.Concatenates [S64x128, S64x64] S64x192 1
  concatenates_S64x32_S64x32_S64x64_d1 : Shape.Concatenates [S64x32, S64x32] S64x64 1
  concatenates_S128x64_S128x64_S128x128_d1 : Shape.Concatenates [S128x64, S128x64] S128x128 1
  concatenates_S256x128_S256x128_S256x256_d1 : Shape.Concatenates [S256x128, S256x128] S256x256 1
  inb_S4000x16_S4000x16_0_0 : ∀ a, (![0, 0] : Fin 2 → Nat) a + S4000x16.size a ≤ S4000x16.size a
  h_S4000x16 : 0 < S4000x16.numel
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x96_S32x96_0_0 : ∀ a, (![0, 0] : Fin 2 → Nat) a + S32x96.size a ≤ S32x96.size a
  h_S32x96 : 0 < S32x96.numel
  shapeCasts_S32x96_S32x96 : S32x96.ShapeCasts S32x96
  slices_S4000x96_o0_0_S4000x64 : S4000x96.Slices ![0, 0] S4000x64
  slices_S4000x96_o0_64_S4000x32 : S4000x96.Slices ![0, 64] S4000x32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  slices_S4000x192_o0_0_S4000x128 : S4000x192.Slices ![0, 0] S4000x128
  slices_S4000x192_o0_128_S4000x64 : S4000x192.Slices ![0, 128] S4000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S4000x128_S4000x128_S4000x256_d1 : Shape.Concatenates [S4000x128, S4000x128] S4000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S4000x256_o0_0_S4000x128 : S4000x256.Slices ![0, 0] S4000x128
  slices_S4000x256_o0_128_S4000x128 : S4000x256.Slices ![0, 128] S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  concatenates_S4000x64_S4000x64_S4000x128_d1 : Shape.Concatenates [S4000x64, S4000x64] S4000x128 1
  slices_S4000x128_o0_0_S4000x64 : S4000x128.Slices ![0, 0] S4000x64
  slices_S4000x128_o0_64_S4000x64 : S4000x128.Slices ![0, 64] S4000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  concatenates_S4000x32_S4000x32_S4000x64_d1 : Shape.Concatenates [S4000x32, S4000x32] S4000x64 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4000x64_o0_0_S4000x32 : S4000x64.Slices ![0, 0] S4000x32
  slices_S4000x64_o0_32_S4000x32 : S4000x64.Slices ![0, 32] S4000x32
  inb_S4000x32_S4000x32_0_0 : ∀ a, (![0, 0] : Fin 2 → Nat) a + S4000x32.size a ≤ S4000x32.size a
  h_S4000x32 : 0 < S4000x32.numel
  dot_S4000x16_S16x32_S4000x32_1_0_0_1_n_n_wf : DotDims.WF S4000x16 S16x32 S4000x32 [1] [0] [0] [1] [] []
  dot_S4000x32_S32x32_S4000x32_1_0_0_1_n_n_wf : DotDims.WF S4000x32 S32x32 S4000x32 [1] [0] [0] [1] [] []
  dot_S4000x32_S32x96_S4000x96_1_0_0_1_n_n_wf : DotDims.WF S4000x32 S32x96 S4000x96 [1] [0] [0] [1] [] []
  dot_S4000x64_S64x192_S4000x192_1_0_0_1_n_n_wf : DotDims.WF S4000x64 S64x192 S4000x192 [1] [0] [0] [1] [] []
  dot_S4000x128_S128x128_S4000x128_1_0_0_1_n_n_wf : DotDims.WF S4000x128 S128x128 S4000x128 [1] [0] [0] [1] [] []
  dot_S4000x256_S256x256_S4000x256_1_0_0_1_n_n_wf : DotDims.WF S4000x256 S256x256 S4000x256 [1] [0] [0] [1] [] []
  dot_S4000x128_S128x64_S4000x64_1_0_0_1_n_n_wf : DotDims.WF S4000x128 S128x64 S4000x64 [1] [0] [0] [1] [] []
  dot_S4000x64_S64x32_S4000x32_1_0_0_1_n_n_wf : DotDims.WF S4000x64 S64x32 S4000x32 [1] [0] [0] [1] [] []
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S500000x16.size a
  hwx0_0 : ∀ i : grid0.Coords, EltTy.bits .f32 = 32 ∨ (Rect.block (s := S500000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .bf16 = 32 ∨ (Rect.block (s := S16x32) S16x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .bf16 = 32 ∨ (Rect.block (s := S32x32) S32x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x96.size a ≤ S32x96.size a
  hwx0_3 : ∀ i : grid0.Coords, EltTy.bits .bf16 = 32 ∨ (Rect.block (s := S32x96) S32x96.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x192.size a ≤ S64x192.size a
  hwx0_4 : ∀ i : grid0.Coords, EltTy.bits .bf16 = 32 ∨ (Rect.block (s := S64x192) S64x192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .bf16 = 32 ∨ (Rect.block (s := S32x32) S32x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x32.size a ≤ S64x32.size a
  hwx0_10 : ∀ i : grid0.Coords, EltTy.bits .bf16 = 32 ∨ (Rect.block (s := S64x32) S64x32.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .bf16 = 32 ∨ (Rect.block (s := S128x64) S128x64.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x32.size a ≤ S500000x32.size a
  hwx0_12 : ∀ i : grid0.Coords, EltTy.bits .f32 = 32 ∨ (Rect.block (s := S500000x32) S4000x32.size (cc0_transform_12 i) (hinb0_12 i)).WholeWords (EltTy.packing .f32)

variable [Facts₀]

def dot_S4000x16_S16x32_S4000x32_1_0_0_1_n_n : DotDims S4000x16 S16x32 S4000x32 where
  lhsContracting := [1]
  rhsContracting := [0]
  lhsNonContracting := [0]
  rhsNonContracting := [1]
  lhsBatch := []
  rhsBatch := []
  wf := dot_S4000x16_S16x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x96_S4000x96_1_0_0_1_n_n : DotDims S4000x32 S32x96 S4000x96 where
  lhsContracting := [1]
  rhsContracting := [0]
  lhsNonContracting := [0]
  rhsNonContracting := [1]
  lhsBatch := []
  rhsBatch := []
  wf := dot_S4000x32_S32x96_S4000x96_1_0_0_1_n_n_wf
def dot_S4000x64_S64x192_S4000x192_1_0_0_1_n_n : DotDims S4000x64 S64x192 S4000x192 where
  lhsContracting := [1]
  rhsContracting := [0]
  lhsNonContracting := [0]
  rhsNonContracting := [1]
  lhsBatch := []
  rhsBatch := []
  wf := dot_S4000x64_S64x192_S4000x192_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S32x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S64x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S64x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S4000x32.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S500000x16 : Shape := ⟨2, ![500000, 16]⟩
abbrev S500000x4 : Shape := ⟨2, ![500000, 4]⟩
abbrev S16x32 : Shape := ⟨2, ![16, 32]⟩
abbrev S32x32 : Shape := ⟨2, ![32, 32]⟩
abbrev S32x64 : Shape := ⟨2, ![32, 64]⟩
abbrev S64x128 : Shape := ⟨2, ![64, 128]⟩
abbrev S64x64 : Shape := ⟨2, ![64, 64]⟩
abbrev S128x128 : Shape := ⟨2, ![128, 128]⟩
abbrev S64x32 : Shape := ⟨2, ![64, 32]⟩
abbrev S128x64 : Shape := ⟨2, ![128, 64]⟩
abbrev S256x128 : Shape := ⟨2, ![256, 128]⟩
abbrev S500000x32 : Shape := ⟨2, ![500000, 32]⟩
abbrev S_ : Shape := ⟨0, ![]⟩
abbrev S500000x64 : Shape := ⟨2, ![500000, 64]⟩
abbrev S500000x128 : Shape := ⟨2, ![500000, 128]⟩
abbrev S500000x256 : Shape := ⟨2, ![500000, 256]⟩
abbrev S500000x128x2 : Shape := ⟨3, ![500000, 128, 2]⟩
abbrev S500000x64x2 : Shape := ⟨3, ![500000, 64, 2]⟩
abbrev S500000x32x2 : Shape := ⟨3, ![500000, 32, 2]⟩

abbrev nBuf : Space → Nat
  | .hbm => 82
  | .vmem => 0
  | .smem => 0
  | _ => 0

abbrev bufTy : (tb : Table) → Fin (tcTables nBuf tb) → BufTy
  | .hbm, ⟨0, _⟩ => ⟨S500000x16, .f32⟩
  | .hbm, ⟨1, _⟩ => ⟨S500000x4, .i32⟩
  | .hbm, ⟨2, _⟩ => ⟨S16x32, .f32⟩
  | .hbm, ⟨3, _⟩ => ⟨S32x32, .f32⟩
  | .hbm, ⟨4, _⟩ => ⟨S32x64, .f32⟩
  | .hbm, ⟨5, _⟩ => ⟨S64x128, .f32⟩
  | .hbm, ⟨6, _⟩ => ⟨S32x32, .f32⟩
  | .hbm, ⟨7, _⟩ => ⟨S64x64, .f32⟩
  | .hbm, ⟨8, _⟩ => ⟨S128x128, .f32⟩
  | .hbm, ⟨9, _⟩ => ⟨S64x32, .f32⟩
  | .hbm, ⟨10, _⟩ => ⟨S128x64, .f32⟩
  | .hbm, ⟨11, _⟩ => ⟨S256x128, .f32⟩
  | .hbm, ⟨12, _⟩ => ⟨S32x32, .f32⟩
  | .hbm, ⟨13, _⟩ => ⟨S64x32, .f32⟩
  | .hbm, ⟨14, _⟩ => ⟨S128x64, .f32⟩
  | .hbm, ⟨15, _⟩ => ⟨S500000x32, .f32⟩
  | .hbm, ⟨16, _⟩ => ⟨S_, .f32⟩
  | .hbm, ⟨17, _⟩ => ⟨S500000x32, .f32⟩
  | .hbm, ⟨18, _⟩ => ⟨S500000x32, .f32⟩
  | .hbm, ⟨19, _⟩ => ⟨S500000x32, .f32⟩
  | .hbm, ⟨20, _⟩ => ⟨S_, .f32⟩
  | .hbm, ⟨21, _⟩ => ⟨S500000x32, .f32⟩
  | .hbm, ⟨22, _⟩ => ⟨S500000x32, .f32⟩
  | .hbm, ⟨23, _⟩ => ⟨S500000x64, .f32⟩
  | .hbm, ⟨24, _⟩ => ⟨S_, .f32⟩
  | .hbm, ⟨25, _⟩ => ⟨S500000x64, .f32⟩
  | .hbm, ⟨26, _⟩ => ⟨S500000x64, .f32⟩
  | .hbm, ⟨27, _⟩ => ⟨S500000x128, .f32⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S_, .f32⟩
  | .hbm, ⟨33, _⟩ => ⟨S500000x128, .f32⟩
  | .hbm, ⟨34, _⟩ => ⟨S500000x128, .f32⟩
  | .hbm, ⟨35, _⟩ => ⟨S500000x256, .f32⟩
  | .hbm, ⟨36, _⟩ => ⟨S500000x128, .f32⟩
  | .hbm, ⟨37, _⟩ => ⟨S_, .f32⟩
  | .hbm, ⟨38, _⟩ => ⟨S500000x128, .f32⟩
  | .hbm, ⟨39, _⟩ => ⟨S500000x128, .f32⟩
  | .hbm, ⟨40, _⟩ => ⟨S500000x128x2, .f32⟩
  | .hbm, ⟨41, _⟩ => ⟨S_, .f32⟩
  | .hbm, ⟨42, _⟩ => ⟨S500000x128, .f32⟩
  | .hbm, ⟨43, _⟩ => ⟨S500000x128, .f32⟩
  | .hbm, ⟨44, _⟩ => ⟨S500000x64, .f32⟩
  | .hbm, ⟨45, _⟩ => ⟨S_, .f32⟩
  | .hbm, ⟨46, _⟩ => ⟨S500000x64, .f32⟩
  | .hbm, ⟨47, _⟩ => ⟨S500000x64, .f32⟩
  | .hbm, ⟨48, _⟩ => ⟨S500000x64, .f32⟩
  | .hbm, ⟨49, _⟩ => ⟨S_, .f32⟩
  | .hbm, ⟨50, _⟩ => ⟨S500000x64, .f32⟩
  | .hbm, ⟨51, _⟩ => ⟨S500000x64, .f32⟩
  | .hbm, ⟨52, _⟩ => ⟨S500000x128, .f32⟩
  | .hbm, ⟨53, _⟩ => ⟨S500000x64, .f32⟩
  | .hbm, ⟨54, _⟩ => ⟨S_, .f32⟩
  | .hbm, ⟨55, _⟩ => ⟨S500000x64, .f32⟩
  | .hbm, ⟨56, _⟩ => ⟨S500000x64, .f32⟩
  | .hbm, ⟨57, _⟩ => ⟨S500000x64x2, .f32⟩
  | .hbm, ⟨58, _⟩ => ⟨S_, .f32⟩
  | .hbm, ⟨59, _⟩ => ⟨S500000x64, .f32⟩
  | .hbm, ⟨60, _⟩ => ⟨S500000x64, .f32⟩
  | .hbm, ⟨61, _⟩ => ⟨S500000x32, .f32⟩
  | .hbm, ⟨62, _⟩ => ⟨S_, .f32⟩
  | .hbm, ⟨63, _⟩ => ⟨S500000x32, .f32⟩
  | .hbm, ⟨64, _⟩ => ⟨S500000x32, .f32⟩
  | .hbm, ⟨65, _⟩ => ⟨S500000x32, .f32⟩
  | .hbm, ⟨66, _⟩ => ⟨S_, .f32⟩
  | .hbm, ⟨67, _⟩ => ⟨S500000x32, .f32⟩
  | .hbm, ⟨68, _⟩ => ⟨S500000x32, .f32⟩
  | .hbm, ⟨69, _⟩ => ⟨S500000x64, .f32⟩
  | .hbm, ⟨70, _⟩ => ⟨S500000x32, .f32⟩
  | .hbm, ⟨71, _⟩ => ⟨S_, .f32⟩
  | .hbm, ⟨72, _⟩ => ⟨S500000x32, .f32⟩
  | .hbm, ⟨73, _⟩ => ⟨S500000x32, .f32⟩
  | .hbm, ⟨74, _⟩ => ⟨S500000x32x2, .f32⟩
  | .hbm, ⟨75, _⟩ => ⟨S_, .f32⟩
  | .hbm, ⟨76, _⟩ => ⟨S500000x32, .f32⟩
  | .hbm, ⟨77, _⟩ => ⟨S500000x32, .f32⟩
  | .hbm, ⟨78, _⟩ => ⟨S500000x32, .f32⟩
  | .hbm, ⟨79, _⟩ => ⟨S_, .f32⟩
  | .hbm, ⟨80, _⟩ => ⟨S500000x32, .f32⟩
  | .hbm, ⟨81, _⟩ => ⟨S500000x32, .f32⟩
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call0_cst : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_call1_cst : Ref sig .tc := ⟨.hbm, 20, rfl⟩
abbrev main_call1_v0 : Ref sig .tc := ⟨.hbm, 21, rfl⟩
abbrev main_v3 : Ref sig .tc := ⟨.hbm, 22, rfl⟩
abbrev main_v4 : Ref sig .tc := ⟨.hbm, 23, rfl⟩
abbrev main_call2_cst : Ref sig .tc := ⟨.hbm, 24, rfl⟩
abbrev main_call2_v0 : Ref sig .tc := ⟨.hbm, 25, rfl⟩
abbrev main_v5 : Ref sig .tc := ⟨.hbm, 26, rfl⟩
abbrev main_v6 : Ref sig .tc := ⟨.hbm, 27, rfl⟩
abbrev main_call3_cst : Ref sig .tc := ⟨.hbm, 28, rfl⟩
abbrev main_call3_v0 : Ref sig .tc := ⟨.hbm, 29, rfl⟩
abbrev main_v7 : Ref sig .tc := ⟨.hbm, 30, rfl⟩
abbrev main_v8 : Ref sig .tc := ⟨.hbm, 31, rfl⟩
abbrev main_call4_cst : Ref sig .tc := ⟨.hbm, 32, rfl⟩
abbrev main_call4_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call5_cst : Ref sig .tc := ⟨.hbm, 37, rfl⟩
abbrev main_call5_v0 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_call6_cst : Ref sig .tc := ⟨.hbm, 45, rfl⟩
abbrev main_call6_v0 : Ref sig .tc := ⟨.hbm, 46, rfl⟩
abbrev main_v17 : Ref sig .tc := ⟨.hbm, 47, rfl⟩
abbrev main_v18 : Ref sig .tc := ⟨.hbm, 48, rfl⟩
abbrev main_call7_cst : Ref sig .tc := ⟨.hbm, 49, rfl⟩
abbrev main_call7_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call8_cst : Ref sig .tc := ⟨.hbm, 54, rfl⟩
abbrev main_call8_v0 : Ref sig .tc := ⟨.hbm, 55, rfl⟩
abbrev main_v22 : Ref sig .tc := ⟨.hbm, 56, rfl⟩
abbrev main_v23 : Ref sig .tc := ⟨.hbm, 57, rfl⟩
abbrev main_cst_0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call9_cst : Ref sig .tc := ⟨.hbm, 62, rfl⟩
abbrev main_call9_v0 : Ref sig .tc := ⟨.hbm, 63, rfl⟩
abbrev main_v27 : Ref sig .tc := ⟨.hbm, 64, rfl⟩
abbrev main_v28 : Ref sig .tc := ⟨.hbm, 65, rfl⟩
abbrev main_call10_cst : Ref sig .tc := ⟨.hbm, 66, rfl⟩
abbrev main_call10_v0 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_call11_cst : Ref sig .tc := ⟨.hbm, 71, rfl⟩
abbrev main_call11_v0 : Ref sig .tc := ⟨.hbm, 72, rfl⟩
abbrev main_v32 : Ref sig .tc := ⟨.hbm, 73, rfl⟩
abbrev main_v33 : Ref sig .tc := ⟨.hbm, 74, rfl⟩
abbrev main_cst_1 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_call12_cst : Ref sig .tc := ⟨.hbm, 79, rfl⟩
abbrev main_call12_v0 : Ref sig .tc := ⟨.hbm, 80, rfl⟩
abbrev main_v37 : Ref sig .tc := ⟨.hbm, 81, rfl⟩

abbrev nD : Nat := 1
abbrev τ : Topo := Topo.v7x

variable {F : FTy → Type} [FloatOps F]

class Facts₀ : Prop where
  bcast_S_S500000x32 : S_.BroadcastsInDim S500000x32 (![] : Fin 0 → Fin S500000x32.rank)
  bcast_S_S500000x64 : S_.BroadcastsInDim S500000x64 (![] : Fin 0 → Fin S500000x64.rank)
  bcast_S_S500000x128 : S_.BroadcastsInDim S500000x128 (![] : Fin 0 → Fin S500000x128.rank)
  concatenates_S500000x128_S500000x128_S500000x256_d1 : Shape.Concatenates [S500000x128, S500000x128] S500000x256 1
  shapeCasts_S500000x256_S500000x128x2 : S500000x256.ShapeCasts S500000x128x2
  reducesTo_S500000x128x2_S500000x128_d2 : S500000x128x2.ReducesTo [2] S500000x128
  h_S_ : 0 < S_.numel
  concatenates_S500000x64_S500000x64_S500000x128_d1 : Shape.Concatenates [S500000x64, S500000x64] S500000x128 1
  shapeCasts_S500000x128_S500000x64x2 : S500000x128.ShapeCasts S500000x64x2
  reducesTo_S500000x64x2_S500000x64_d2 : S500000x64x2.ReducesTo [2] S500000x64
  concatenates_S500000x32_S500000x32_S500000x64_d1 : Shape.Concatenates [S500000x32, S500000x32] S500000x64 1
  shapeCasts_S500000x64_S500000x32x2 : S500000x64.ShapeCasts S500000x32x2
  reducesTo_S500000x32x2_S500000x32_d2 : S500000x32x2.ReducesTo [2] S500000x32
  dot_S500000x16_S16x32_S500000x32_1_0_0_1_n_n_wf : DotDims.WF S500000x16 S16x32 S500000x32 [1] [0] [0] [1] [] []
  dot_S500000x32_S32x32_S500000x32_1_0_0_1_n_n_wf : DotDims.WF S500000x32 S32x32 S500000x32 [1] [0] [0] [1] [] []
  dot_S500000x32_S32x64_S500000x64_1_0_0_1_n_n_wf : DotDims.WF S500000x32 S32x64 S500000x64 [1] [0] [0] [1] [] []
  dot_S500000x64_S64x128_S500000x128_1_0_0_1_n_n_wf : DotDims.WF S500000x64 S64x128 S500000x128 [1] [0] [0] [1] [] []
  dot_S500000x128_S128x128_S500000x128_1_0_0_1_n_n_wf : DotDims.WF S500000x128 S128x128 S500000x128 [1] [0] [0] [1] [] []
  dot_S500000x256_S256x128_S500000x128_1_0_0_1_n_n_wf : DotDims.WF S500000x256 S256x128 S500000x128 [1] [0] [0] [1] [] []
  dot_S500000x128_S128x64_S500000x64_1_0_0_1_n_n_wf : DotDims.WF S500000x128 S128x64 S500000x64 [1] [0] [0] [1] [] []
  dot_S500000x64_S64x64_S500000x64_1_0_0_1_n_n_wf : DotDims.WF S500000x64 S64x64 S500000x64 [1] [0] [0] [1] [] []
  dot_S500000x64_S64x32_S500000x32_1_0_0_1_n_n_wf : DotDims.WF S500000x64 S64x32 S500000x32 [1] [0] [0] [1] [] []

variable [Facts₀]

def dot_S500000x16_S16x32_S500000x32_1_0_0_1_n_n : DotDims S500000x16 S16x32 S500000x32 where
  lhsContracting := [1]
  rhsContracting := [0]
  lhsNonContracting := [0]
  rhsNonContracting := [1]
  lhsBatch := []
  rhsBatch := []
  wf := dot_S500000x16_S16x32_S500000x32_1_0_0_1_n_n_wf
def dot_S500000x32_S32x32_S500000x32_1_0_0_1_n_n : DotDims S500000x32 S32x32 S500000x32 where
  lhsContracting := [1]
  rhsContracting := [0]
  lhsNonContracting := [0]
  rhsNonContracting := [1]
  lhsBatch := []
  rhsBatch := []
  wf := dot_S500000x32_S32x32_S500000x32_1_0_0_1_n_n_wf
def dot_S500000x32_S32x64_S500000x64_1_0_0_1_n_n : DotDims S500000x32 S32x64 S500000x64 where
  lhsContracting := [1]
  rhsContracting := [0]
  lhsNonContracting := [0]
  rhsNonContracting := [1]
  lhsBatch := []
  rhsBatch := []
  wf := dot_S500000x32_S32x64_S500000x64_1_0_0_1_n_n_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S500000x64_S64x32_S500000x32_1_0_0_1_n_n : DotDims S500000x64 S64x32 S500000x32 where
  lhsContracting := [1]
  rhsContracting := [0]
  lhsNonContracting := [0]
  rhsNonContracting := [1]
  lhsBatch := []
  rhsBatch := []
  wf := dot_S500000x64_S64x32_S500000x32_1_0_0_1_n_n_wf

class Facts : Prop extends Facts₀ where

variable [Facts]
-- ==== Proof.LibRowNet.lean ====
/-
  A per-row network over the extended reals, and the same network in a fused arrangement.

  Every array row is treated alone: a row vector v of length K times a K×N matrix W is the vector
  (Σ_k v k · W (k, n))_n (lin), followed by a maximum against zero it is act. Two row vectors are laid side by side by
  catv, and pairsum adds neighbouring entries 2c and 2c+1 (starting from an explicit zero, as a reduction from an initial
  value does). One decoder stage (dec) takes the running vector x and a lateral vector lat of the same length C, lays
  them side by side, and returns act Wu (act Wm cat + pairsum cat).

  net is the whole network in the two-pass arrangement: four act layers, then three decoder stages whose lateral
  vectors are act layers of the encoder's intermediate vectors.

  netK is the fused arrangement: matrices that share their left factor are joined column-wise (hcat) and the joint
  product is cut apart afterwards (sl); the pairwise sum is a product with the 0/1 matrix pairMat whose entry (j, c) is
  one exactly when j / 2 = c. No program is mentioned in this file.
-/
import Idealize.ShloMosaic.PureOps.Ideal.Laws
import Idealize.ShloMosaic.Lib.ValueIdx
import Idealize.ShloMosaic.Lib.Pipeline.Value

noncomputable section

open scoped BigOperators

namespace RowNet

open Idealize.ShloMosaic Idealize.ShloMosaic.ValueIdx

/-- A K×N array of extended reals. -/
abbrev Mat (K N : ℕ) := (⟨2, ![K, N]⟩ : Shape).Idx → EReal

/-- Row vector times matrix: entry n is Σ_k v k · W (k, n). -/
def lin {K N : ℕ} (W : Mat K N) (v : Fin K → EReal) (n : Fin N) : EReal := ∑ k : Fin K, v k * W (ix2 k n)

/-- Row vector times matrix, then the maximum with zero. -/
def act {K N : ℕ} (W : Mat K N) (v : Fin K → EReal) (n : Fin N) : EReal := max (lin W v n) 0

/-- Two row vectors side by side. -/
def catv {A B C : ℕ} (hC : C = A + B) (u : Fin A → EReal) (v : Fin B → EReal) (j : Fin C) : EReal :=
  if h : j.val < A then u ⟨j.val, h⟩ else v ⟨j.val - A, by have := j.isLt; omega⟩

/-- Neighbouring entries added: entry c is 0 + (v (2c) + v (2c+1)), as a sum over the two offsets. -/
def pairsum {N C : ℕ} (hN : N = 2 * C) (v : Fin N → EReal) (c : Fin C) : EReal :=
  0 + ∑ t : Fin 2, v ⟨2 * c.val + t.val, by have := c.isLt; have := t.isLt; omega⟩

/-- A stretch of A consecutive entries of a row vector, starting at off. -/
def sl {N A : ℕ} (off : ℕ) (h : off + A ≤ N) (v : Fin N → EReal) (c : Fin A) : EReal :=
  v ⟨off + c.val, by have := c.isLt; omega⟩

/-- Two matrices with the same number of rows joined column-wise. -/
def hcat {K A B N : ℕ} (hN : N = A + B) (a : Mat K A) (b : Mat K B) : Mat K N :=
  fun i => catv hN (fun c => a (ix2 (i 0) c)) (fun c => b (ix2 (i 0) c)) (i 1)

/-- The 0/1 matrix that adds neighbouring entries: entry (j, c) is one exactly when j / 2 = c. -/
def pairMat (N C : ℕ) : Mat N C := fun i => if (i 0).val / 2 = (i 1).val then 1 else 0

/-- One decoder stage in the two-pass arrangement. -/
def dec {C D N : ℕ} (hcat : N = C + C) (hpair : N = 2 * C) (Wm : Mat N C) (Wu : Mat C D) (x lat : Fin C → EReal) :
    Fin D → EReal :=
  act Wu (fun k => act Wm (catv hcat x lat) k + pairsum hpair (catv hcat x lat) k)

/-- One decoder stage in the fused arrangement: ONE product with the joint matrix WmP (N × N), its first C columns
    followed by the maximum with zero, its last C columns added unchanged. -/
def decK {C D N : ℕ} (hcat : N = C + C) (WmP : Mat N N) (Wu : Mat C D) (x lat : Fin C → EReal) : Fin D → EReal :=
  act Wu (fun k => max (sl 0 (by omega) (lin WmP (catv hcat x lat)) k) 0
    + sl C (by omega) (lin WmP (catv hcat x lat)) k)

/-- The thirteen weight matrices, named by the position of the argument that carries them. -/
structure Wts where
  w2 : Mat 16 32
  w3 : Mat 32 32
  w4 : Mat 32 64
  w5 : Mat 64 128
  w6 : Mat 32 32
  w7 : Mat 64 64
  w8 : Mat 128 128
  w9 : Mat 64 32
  w10 : Mat 128 64
  w11 : Mat 256 128
  w12 : Mat 32 32
  w13 : Mat 64 32
  w14 : Mat 128 64

/-- The encoder's vectors of one row. -/
def e1 (W : Wts) (x : Fin 16 → EReal) : Fin 32 → EReal := act W.w3 (act W.w2 x)
def e2 (W : Wts) (x : Fin 16 → EReal) : Fin 64 → EReal := act W.w4 (e1 W x)
def e3 (W : Wts) (x : Fin 16 → EReal) : Fin 128 → EReal := act W.w5 (e2 W x)
/-- The decoder's vectors of one row, widest stage first. -/
def d3 (W : Wts) (x : Fin 16 → EReal) : Fin 64 → EReal := dec rfl rfl W.w11 W.w14 (e3 W x) (act W.w8 (e3 W x))
def d2 (W : Wts) (x : Fin 16 → EReal) : Fin 32 → EReal := dec rfl rfl W.w10 W.w13 (d3 W x) (act W.w7 (e2 W x))
/-- The network's output for one row. -/
def net (W : Wts) (x : Fin 16 → EReal) : Fin 32 → EReal := dec rfl rfl W.w9 W.w12 (d2 W x) (act W.w6 (e1 W x))

/-- The network applied to every row of a B×16 array. -/
def G {B : ℕ} (W : Wts) (feat : Mat B 16) : Mat B 32 :=
  fun i => net W (fun k => feat (ix2 (i 0) k)) (i 1)

theorem G_apply {B : ℕ} (W : Wts) (feat : Mat B 16) (r : Fin B) (c : Fin 32) :
    G W feat (ix2 r c) = net W (fun k => feat (ix2 r k)) c := rfl

/-- The eleven matrices the fused arrangement multiplies with, in the order they are used. -/
structure WtsK where
  k1 : Mat 16 32
  k2 : Mat 32 32
  k3 : Mat 32 96
  k4 : Mat 64 192
  k5 : Mat 128 128
  k6 : Mat 64 64
  k7 : Mat 128 128
  k8 : Mat 256 256
  k9 : Mat 32 32
  k10 : Mat 64 32
  k11 : Mat 128 64

/-- The fused arrangement's vectors of one row. -/
def ke1 (Wk : WtsK) (x : Fin 16 → EReal) : Fin 32 → EReal := act Wk.k2 (act Wk.k1 x)
def ky1 (Wk : WtsK) (x : Fin 16 → EReal) : Fin 96 → EReal := act Wk.k3 (ke1 Wk x)
def ke2 (Wk : WtsK) (x : Fin 16 → EReal) : Fin 64 → EReal := sl 0 (by omega) (ky1 Wk x)
def klat1 (Wk : WtsK) (x : Fin 16 → EReal) : Fin 32 → EReal := sl 64 (by omega) (ky1 Wk x)
def ky2 (Wk : WtsK) (x : Fin 16 → EReal) : Fin 192 → EReal := act Wk.k4 (ke2 Wk x)
def ke3 (Wk : WtsK) (x : Fin 16 → EReal) : Fin 128 → EReal := sl 0 (by omega) (ky2 Wk x)
def klat2 (Wk : WtsK) (x : Fin 16 → EReal) : Fin 64 → EReal := sl 128 (by omega) (ky2 Wk x)
def klat3 (Wk : WtsK) (x : Fin 16 → EReal) : Fin 128 → EReal := act Wk.k5 (ke3 Wk x)
def kd3 (Wk : WtsK) (x : Fin 16 → EReal) : Fin 64 → EReal := decK rfl Wk.k8 Wk.k11 (ke3 Wk x) (klat3 Wk x)
def kd2 (Wk : WtsK) (x : Fin 16 → EReal) : Fin 32 → EReal := decK rfl Wk.k7 Wk.k10 (kd3 Wk x) (klat2 Wk x)
def netK (Wk : WtsK) (x : Fin 16 → EReal) : Fin 32 → EReal := decK rfl Wk.k6 Wk.k9 (kd2 Wk x) (klat1 Wk x)

/-- The fused arrangement's matrices built from the thirteen weights. -/
def fuse (W : Wts) : WtsK where
  k1 := W.w2
  k2 := W.w3
  k3 := hcat rfl W.w4 W.w6
  k4 := hcat rfl W.w5 W.w7
  k5 := W.w8
  k6 := hcat rfl W.w9 (pairMat 64 32)
  k7 := hcat rfl W.w10 (pairMat 128 64)
  k8 := hcat rfl W.w11 (pairMat 256 128)
  k9 := W.w12
  k10 := W.w13
  k11 := W.w14

end RowNet

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.LibRowTile.lean ====
/-
  Vector operations on a tile of M rows, read one entry at a time as operations on the entry's row.

  A product of an M×K tile with a K×N matrix into a zero accumulator, followed by a maximum against a splat zero, has
  at (p, c) the value act W (row p of the tile) c (tile_act); without the maximum it is lin (tile_lin). A slice of columns
  off … off + A - 1 reads the tile at column off + c (tile_slice); two tiles joined column-wise read, at (p, j), the join
  of the two rows p (tile_concat). No program is mentioned here.
-/
import proofs.«171480_j6889127543366_2_alg».proof.Proof.LibRowNet
import proofs.«171480_j6889127543366_2_alg».proof.Proof.LibDense

noncomputable section

open scoped BigOperators

namespace RowNet

open Idealize.ShloMosaic Idealize.ShloMosaic.ValueIdx

theorem lin_congr {K N : ℕ} {W W' : Mat K N} {f f' : Fin K → EReal} (hW : W = W') (hf : ∀ k, f k = f' k) (n : Fin N) :
    lin W f n = lin W' f' n := by
  subst hW; rw [show f = f' from funext hf]

theorem act_congr {K N : ℕ} {W W' : Mat K N} {f f' : Fin K → EReal} (hW : W = W') (hf : ∀ k, f k = f' k) (n : Fin N) :
    act W f n = act W' f' n := by
  subst hW; rw [show f = f' from funext hf]

/-- Tile times matrix into the zero accumulator, at (p, c): the row p times the matrix, entry c. -/
theorem tile_lin {M K N : ℕ} {φ₁ φ₂ : FTy} (d : DotDims ⟨2, ![M, K]⟩ ⟨2, ![K, N]⟩ ⟨2, ![M, N]⟩) (hd : d = DotDims.plain M K N)
    (h : FVec Ideal ⟨2, ![M, K]⟩ φ₁) (W : FVec Ideal ⟨2, ![K, N]⟩ φ₂) (p : Fin M) (c : Fin N) :
    matmul d none h W (constant ⟨2, ![M, N]⟩ .f32 0x00000000#32) (ix2 p c) = lin W (fun k => h (ix2 p k)) c :=
  LibDense.plain_matmul_apply d hd none h W p c

/-- The same followed by the maximum against a splat of the zero word. -/
theorem tile_act {M K N : ℕ} {φ₁ φ₂ : FTy} (d : DotDims ⟨2, ![M, K]⟩ ⟨2, ![K, N]⟩ ⟨2, ![M, N]⟩) (hd : d = DotDims.plain M K N)
    (h : FVec Ideal ⟨2, ![M, K]⟩ φ₁) (W : FVec Ideal ⟨2, ![K, N]⟩ φ₂) (p : Fin M) (c : Fin N) :
    maximumf (matmul d none h W (constant ⟨2, ![M, N]⟩ .f32 0x00000000#32))
        (broadcast ⟨2, ![M, N]⟩ (Scalar.ofBits (F := Ideal) .f32 0x00000000#32)) (ix2 p c)
      = act W (fun k => h (ix2 p k)) c := by
  rw [maximumf_apply, broadcast_apply, tile_lin d hd]
  show max _ (Ideal.ofBits .f32 0x00000000#32) = _
  rw [Ideal.ofBits_zero_f32]
  rfl

/-- A maximum against a splat of the zero word, at an index. -/
theorem tile_relu {s : Shape} (v : FVec Ideal s .f32) (i : s.Idx) :
    maximumf v (broadcast s (Scalar.ofBits (F := Ideal) .f32 0x00000000#32)) i = max (v i) 0 := by
  rw [maximumf_apply, broadcast_apply]
  show max _ (Ideal.ofBits .f32 0x00000000#32) = _
  rw [Ideal.ofBits_zero_f32]

/-- A change to the sixteen-bit format is the identity, at an index. -/
theorem trunc_bf16 {s : Shape} (a : FVec Ideal s .f32) (h : FTy.bf16.bits < FTy.f32.bits) (i : s.Idx) :
    (truncf .bf16 a h : FVec Ideal s .bf16) i = a i := rfl

/-- Columns off … off + A - 1 of a tile, at (p, c): the tile at column off + c. -/
theorem tile_slice {M N A : ℕ} {α : Type} (off : ℕ) (v : (⟨2, ![M, N]⟩ : Shape).Idx → α)
    (h : (⟨2, ![M, N]⟩ : Shape).Slices ![0, off] ⟨2, ![M, A]⟩) (hoff : off + A ≤ N) (p : Fin M) (c : Fin A) :
    extractStridedSlice ⟨2, ![M, A]⟩ ![0, off] v h (ix2 p c)
      = v (ix2 p ⟨off + c.val, by have := c.isLt; omega⟩) := by
  refine extractStridedSlice_apply ![0, off] v h (ix2 p c) _ fun a => ?_
  match a with
  | ⟨0, _⟩ => exact (Nat.zero_add _).symm
  | ⟨1, _⟩ => rfl

/-- Two tiles joined column-wise, at (p, j): the two rows p joined, entry j. -/
theorem tile_concat {M A B C : ℕ} (hC : C = A + B) (a : (⟨2, ![M, A]⟩ : Shape).Idx → EReal)
    (b : (⟨2, ![M, B]⟩ : Shape).Idx → EReal)
    (h : Shape.Concatenates [⟨2, ![M, A]⟩, ⟨2, ![M, B]⟩] ⟨2, ![M, C]⟩ 1) (p : Fin M) (j : Fin C) :
    concatenate ⟨2, ![M, C]⟩ 1 [⟨⟨2, ![M, A]⟩, a⟩, ⟨⟨2, ![M, B]⟩, b⟩] h (ix2 p j)
      = catv hC (fun k => a (ix2 p k)) (fun k => b (ix2 p k)) j := by
  unfold catv
  by_cases hj : j.val < A
  · rw [dif_pos hj]
    refine concatenate_pair_apply_left 1 a b h (ix2 p j) rfl (ix2 p ⟨j.val, hj⟩) fun bb => ?_
    match bb with
    | ⟨0, _⟩ => rfl
    | ⟨1, _⟩ => rfl
  · rw [dif_neg hj]
    have hjB : j.val - A < B := by have := j.isLt; omega
    refine concatenate_pair_apply_right 1 a b h (ix2 p j) rfl rfl (ix2 p ⟨j.val - A, hjB⟩) (fun bb hb => ?_) ?_
    · match bb with
      | ⟨0, _⟩ => rfl
      | ⟨1, _⟩ => exact absurd rfl hb
    · show (j.val - A) + A = j.val
      omega

theorem catv_congr {A B C : ℕ} (hC : C = A + B) {u u' : Fin A → EReal} {v v' : Fin B → EReal} (hu : ∀ k, u k = u' k)
    (hv : ∀ k, v k = v' k) (j : Fin C) : catv hC u v j = catv hC u' v' j := by
  rw [show u = u' from funext hu, show v = v' from funext hv]

/-- The first C columns of a tile followed by the maximum with zero, plus the next C columns, at (p, k). -/
theorem tile_sum {M C N : ℕ} (y : FVec Ideal ⟨2, ![M, N]⟩ .f32)
    (hs0 : (⟨2, ![M, N]⟩ : Shape).Slices ![0, 0] ⟨2, ![M, C]⟩) (hsC : (⟨2, ![M, N]⟩ : Shape).Slices ![0, C] ⟨2, ![M, C]⟩)
    (h0 : 0 + C ≤ N) (hC : C + C ≤ N) (Y : Fin N → EReal) (p : Fin M) (hY : ∀ j, y (ix2 p j) = Y j) (k : Fin C) :
    addf (maximumf (extractStridedSlice ⟨2, ![M, C]⟩ ![0, 0] y hs0)
          (broadcast ⟨2, ![M, C]⟩ (Scalar.ofBits (F := Ideal) .f32 0x00000000#32)))
        (extractStridedSlice ⟨2, ![M, C]⟩ ![0, C] y hsC) (ix2 p k)
      = max (sl 0 h0 Y k) 0 + sl C hC Y k := by
  rw [addf_apply, tile_relu, tile_slice 0 y hs0 h0, tile_slice C y hsC hC, hY, hY]
  rfl

/-- One decoder stage on a tile: the two tiles joined column-wise, ONE product with the joint N×N matrix, the first C
    columns followed by the maximum with zero plus the last C columns, a second product and a maximum with zero — at
    (p, c) it is the fused decoder stage of the two rows p. -/
theorem tile_dec {M C D N : ℕ} (hcat : N = C + C)
    (dm : DotDims ⟨2, ![M, N]⟩ ⟨2, ![N, N]⟩ ⟨2, ![M, N]⟩) (hdm : dm = DotDims.plain M N N)
    (du : DotDims ⟨2, ![M, C]⟩ ⟨2, ![C, D]⟩ ⟨2, ![M, D]⟩) (hdu : du = DotDims.plain M C D)
    (x lat : (⟨2, ![M, C]⟩ : Shape).Idx → EReal) (WmP : FVec Ideal ⟨2, ![N, N]⟩ .bf16) (Wu : FVec Ideal ⟨2, ![C, D]⟩ .bf16)
    (hc : Shape.Concatenates [⟨2, ![M, C]⟩, ⟨2, ![M, C]⟩] ⟨2, ![M, N]⟩ 1)
    (hs0 : (⟨2, ![M, N]⟩ : Shape).Slices ![0, 0] ⟨2, ![M, C]⟩) (hsC : (⟨2, ![M, N]⟩ : Shape).Slices ![0, C] ⟨2, ![M, C]⟩)
    (hb : FTy.bf16.bits < FTy.f32.bits) (WmP' : Mat N N) (hWm : WmP = WmP') (Wu' : Mat C D) (hWu : Wu = Wu')
    (X L : Fin C → EReal) (p : Fin M) (hX : ∀ k, x (ix2 p k) = X k) (hL : ∀ k, lat (ix2 p k) = L k) (c : Fin D) :
    maximumf (matmul (φ₁ := .bf16) du none (truncf .bf16 (addf (maximumf (extractStridedSlice ⟨2, ![M, C]⟩ ![0, 0]
          (matmul (φ₁ := .bf16) dm none (concatenate ⟨2, ![M, N]⟩ 1 [⟨⟨2, ![M, C]⟩, x⟩, ⟨⟨2, ![M, C]⟩, lat⟩] hc) WmP
            (constant ⟨2, ![M, N]⟩ .f32 0x00000000#32)) hs0)
          (broadcast ⟨2, ![M, C]⟩ (Scalar.ofBits (F := Ideal) .f32 0x00000000#32)))
        (extractStridedSlice ⟨2, ![M, C]⟩ ![0, C]
          (matmul (φ₁ := .bf16) dm none (concatenate ⟨2, ![M, N]⟩ 1 [⟨⟨2, ![M, C]⟩, x⟩, ⟨⟨2, ![M, C]⟩, lat⟩] hc) WmP
            (constant ⟨2, ![M, N]⟩ .f32 0x00000000#32)) hsC)) hb) Wu (constant ⟨2, ![M, D]⟩ .f32 0x00000000#32))
      (broadcast ⟨2, ![M, D]⟩ (Scalar.ofBits (F := Ideal) .f32 0x00000000#32)) (ix2 p c)
    = decK hcat WmP' Wu' X L c := by
  subst hWm hWu
  unfold decK
  refine (tile_act du hdu _ Wu p c).trans (act_congr rfl (fun k => ?_) c)
  show addf (F := Ideal) _ _ (ix2 p k) = _
  refine tile_sum _ hs0 hsC (by omega) (by omega) _ p (fun j => ?_) k
  refine (tile_lin dm hdm _ WmP p j).trans (lin_congr rfl (fun i => ?_) j)
  exact (tile_concat hcat x lat hc p i).trans (catv_congr hcat hX hL i)

/-- Two families of eleven matrices with equal members are equal. -/
theorem WtsK_ext {a b : WtsK} (h1 : a.k1 = b.k1) (h2 : a.k2 = b.k2) (h3 : a.k3 = b.k3) (h4 : a.k4 = b.k4) (h5 : a.k5 = b.k5)
    (h6 : a.k6 = b.k6) (h7 : a.k7 = b.k7) (h8 : a.k8 = b.k8) (h9 : a.k9 = b.k9) (h10 : a.k10 = b.k10) (h11 : a.k11 = b.k11) :
    a = b := by
  cases a; cases b
  simp only [WtsK.mk.injEq]
  exact ⟨h1, h2, h3, h4, h5, h6, h7, h8, h9, h10, h11⟩

end RowNet

end
-- ==== Proof.KerRows.lean ====
/-
  The kernel body's arithmetic, read one entry at a time: entry (p, c) of the block it stores is the fused per-row
  network netK of row p of the block it loads, for any eleven weight matrices. Each intermediate vector of the body is
  first identified with the corresponding vector of netK for the row p (the encoder's vectors directly; the decoder's
  three stages through the tile form of one fused decoder stage).
-/
import proofs.«171480_j6889127543366_2_alg».proof.Proof.Gen.KernelIdeal.Frame
import proofs.«171480_j6889127543366_2_alg».proof.Proof.LibRowTile

noncomputable section

namespace Cert.KernelIdeal.KerRows

open Cert.KernelIdeal Cert.KernelIdeal.Gen Idealize.ShloMosaic Idealize.ShloMosaic.ValueIdx RowNet

variable (Wk : WtsK) (v0 : Vec Ideal S4000x16 .f32) (p : Fin 4000)

/-- The joint product for the second and first encoder outputs' successors: three act layers. -/
theorem pay2_row (c : Fin 96) :
    k0_pay2 (F := Ideal) v0 Wk.k1 Wk.k2 Wk.k3 (ix2 p c) = ky1 Wk (fun k => v0 (ix2 p k)) c := by
  unfold k0_pay2 ky1 ke1
  refine (tile_act _ rfl _ _ p c).trans (act_congr (shapeCast_self _ _) (fun k => ?_) c)
  refine (trunc_bf16 _ _ _).trans ?_
  refine (tile_act _ rfl _ _ p k).trans (act_congr (shapeCast_self _ _) (fun k' => ?_) k)
  refine (trunc_bf16 _ _ _).trans ?_
  exact (tile_act _ rfl _ _ p k').trans (act_congr (shapeCast_self _ _) (fun _ => rfl) k')

/-- Columns 64 … 95 of it: the first lateral vector. -/
theorem pay3_row (c : Fin 32) :
    k0_pay3 (F := Ideal) v0 Wk.k1 Wk.k2 Wk.k3 (ix2 p c) = klat1 Wk (fun k => v0 (ix2 p k)) c := by
  unfold k0_pay3 klat1
  refine (trunc_bf16 _ _ _).trans ?_
  refine (tile_slice 64 _ _ (by omega) p c).trans ?_
  exact pay2_row Wk v0 p _

/-- The next joint product, from columns 0 … 63. -/
theorem pay4_row (c : Fin 192) :
    k0_pay4 (F := Ideal) v0 Wk.k1 Wk.k2 Wk.k3 Wk.k4 (ix2 p c) = ky2 Wk (fun k => v0 (ix2 p k)) c := by
  unfold k0_pay4 ky2 ke2
  refine (tile_act _ rfl _ _ p c).trans (act_congr (shapeCast_self _ _) (fun k => ?_) c)
  refine (trunc_bf16 _ _ _).trans ?_
  refine (tile_slice 0 _ _ (by omega) p k).trans ?_
  exact pay2_row Wk v0 p _

/-- Its columns 0 … 127: the third encoder vector. -/
theorem pay5_row (c : Fin 128) :
    k0_pay5 (F := Ideal) v0 Wk.k1 Wk.k2 Wk.k3 Wk.k4 (ix2 p c) = ke3 Wk (fun k => v0 (ix2 p k)) c := by
  unfold k0_pay5 ke3
  refine (trunc_bf16 _ _ _).trans ?_
  refine (tile_slice 0 _ _ (by omega) p c).trans ?_
  exact pay4_row Wk v0 p _

/-- Its columns 128 … 191: the second lateral vector. -/
theorem pay6_row (c : Fin 64) :
    k0_pay6 (F := Ideal) v0 Wk.k1 Wk.k2 Wk.k3 Wk.k4 (ix2 p c) = klat2 Wk (fun k => v0 (ix2 p k)) c := by
  unfold k0_pay6 klat2
  refine (trunc_bf16 _ _ _).trans ?_
  refine (tile_slice 128 _ _ (by omega) p c).trans ?_
  exact pay4_row Wk v0 p _

/-- The third lateral vector: one more act layer on the third encoder vector. -/
theorem pay7_row (c : Fin 128) :
    k0_pay7 (F := Ideal) v0 Wk.k1 Wk.k2 Wk.k3 Wk.k4 Wk.k5 (ix2 p c) = klat3 Wk (fun k => v0 (ix2 p k)) c := by
  unfold k0_pay7 klat3
  refine (tile_act _ rfl _ _ p c).trans (act_congr (shapeCast_self _ _) (fun k => ?_) c)
  exact pay5_row Wk v0 p k

variable (v22 : FVec Ideal S4000x32 .bf16) (v29 : FVec Ideal S4000x128 .bf16) (v31 : FVec Ideal S4000x64 .bf16)
  (v36 : FVec Ideal S4000x128 .f32) (L1 : Fin 32 → EReal) (E3 : Fin 128 → EReal) (L2 : Fin 64 → EReal) (L3 : Fin 128 → EReal)
  (h22 : ∀ k, v22 (ix2 p k) = L1 k) (h29 : ∀ k, v29 (ix2 p k) = E3 k) (h31 : ∀ k, v31 (ix2 p k) = L2 k)
  (h36 : ∀ k, v36 (ix2 p k) = L3 k)

include h22 h29 h31 h36 in
/-- Two whole decoder stages and the joint product of the third: the third stage's joint product of row p. -/
theorem pay8_row (c : Fin 64) :
    k0_pay8 (F := Ideal) v22 v29 v31 v36 Wk.k8 Wk.k11 Wk.k7 Wk.k10 Wk.k6 (ix2 p c)
      = lin Wk.k6 (catv rfl (decK rfl Wk.k7 Wk.k10 (decK rfl Wk.k8 Wk.k11 E3 L3) L2) L1) c := by
  unfold k0_pay8
  refine (tile_lin _ rfl _ _ p c).trans (lin_congr (shapeCast_self _ _) (fun j => ?_) c)
  refine (tile_concat (A := 32) (B := 32) (C := 64) rfl _ _ _ p j).trans ?_
  refine catv_congr (A := 32) (B := 32) (C := 64) rfl (fun k => ?_) h22 j
  refine (trunc_bf16 _ _ _).trans ?_
  refine tile_dec (M := 4000) (C := 64) (D := 32) (N := 128) (hcat := rfl) (hdm := rfl) (hdu := rfl)
    (hWm := shapeCast_self _ _) (hWu := shapeCast_self _ _) (p := p) (hX := fun k' => ?_) (hL := h31) (c := k) ..
  refine (trunc_bf16 _ _ _).trans ?_
  exact tile_dec (M := 4000) (C := 128) (D := 64) (N := 256) (hcat := rfl) (hdm := rfl) (hdu := rfl)
    (hWm := shapeCast_self _ _) (hWu := shapeCast_self _ _) (p := p) (hX := h29) (hL := fun k'' => (trunc_bf16 _ _ _).trans (h36 k'')) (c := k') ..

include h22 h29 h31 h36 in
/-- Columns 0 … 31 of that product followed by the maximum with zero. -/
theorem pay9_row (c : Fin 32) :
    k0_pay9 (F := Ideal) v22 v29 v31 v36 Wk.k8 Wk.k11 Wk.k7 Wk.k10 Wk.k6 (ix2 p c)
      = max (sl 0 (by omega) (lin Wk.k6 (catv rfl (decK rfl Wk.k7 Wk.k10 (decK rfl Wk.k8 Wk.k11 E3 L3) L2) L1)) c) 0 := by
  unfold k0_pay9
  refine (tile_relu _ _).trans (congrArg (fun z => max z 0) ?_)
  refine (tile_slice 0 _ _ (by omega) p c).trans ?_
  exact pay8_row Wk p v22 v29 v31 v36 L1 E3 L2 L3 h22 h29 h31 h36 _

omit v0 in
/-- The end of the third decoder stage: the sum of the two halves, a product and a maximum with zero. -/
theorem pay1_row (v73 : FVec Ideal S4000x64 .f32) (v76 : FVec Ideal S4000x32 .f32) (Y : Fin 64 → EReal)
    (h73 : ∀ j, v73 (ix2 p j) = Y j) (h76 : ∀ k, v76 (ix2 p k) = max (sl 0 (by omega) Y k) 0) (c : Fin 32) :
    k0_pay1 (F := Ideal) v73 v76 Wk.k9 (ix2 p c)
      = act Wk.k9 (fun k => max (sl 0 (by omega) Y k) 0 + sl 32 (by omega) Y k) c := by
  unfold k0_pay1
  refine (tile_act _ rfl _ _ p c).trans (act_congr (shapeCast_self _ _) (fun k => ?_) c)
  refine (trunc_bf16 _ _ _).trans ?_
  rw [addf_apply, h76, tile_slice 32 v73 _ (by omega) p k, h73]
  rfl

/-- The whole body: entry (p, c) of what it stores is netK of row p of the block it loads. -/
theorem body_row (c : Fin 32) :
    k0_pay1 (F := Ideal)
        (k0_pay8 (k0_pay3 v0 Wk.k1 Wk.k2 Wk.k3) (k0_pay5 v0 Wk.k1 Wk.k2 Wk.k3 Wk.k4) (k0_pay6 v0 Wk.k1 Wk.k2 Wk.k3 Wk.k4)
          (k0_pay7 v0 Wk.k1 Wk.k2 Wk.k3 Wk.k4 Wk.k5) Wk.k8 Wk.k11 Wk.k7 Wk.k10 Wk.k6)
        (k0_pay9 (k0_pay3 v0 Wk.k1 Wk.k2 Wk.k3) (k0_pay5 v0 Wk.k1 Wk.k2 Wk.k3 Wk.k4) (k0_pay6 v0 Wk.k1 Wk.k2 Wk.k3 Wk.k4)
          (k0_pay7 v0 Wk.k1 Wk.k2 Wk.k3 Wk.k4 Wk.k5) Wk.k8 Wk.k11 Wk.k7 Wk.k10 Wk.k6)
        Wk.k9 (ix2 p c)
      = netK Wk (fun k => v0 (ix2 p k)) c := by
  unfold netK kd2 kd3 decK
  exact pay1_row Wk p _ _ _
    (fun j => pay8_row Wk p _ _ _ _ _ _ _ _ (pay3_row Wk v0 p) (pay5_row Wk v0 p) (pay6_row Wk v0 p) (pay7_row Wk v0 p) j)
    (fun k => pay9_row Wk p _ _ _ _ _ _ _ _ (pay3_row Wk v0 p) (pay5_row Wk v0 p) (pay6_row Wk v0 p) (pay7_row Wk v0 p) k) c

theorem hz : (![0, 0] : Fin 2 → Nat) = fun _ => 0 := funext fun a => by fin_cases a <;> rfl

omit Wk v0 in
/-- The block the body stores, entry (p, q): its one store covers the block, every load reads a whole buffer. -/
theorem out_row (x0 : Vec Ideal S4000x16 .f32) (x1 : Vec Ideal S16x32 .bf16) (x2 : Vec Ideal S32x32 .bf16)
    (x3 : Vec Ideal S32x96 .bf16) (x4 : Vec Ideal S64x192 .bf16) (x5 : Vec Ideal S128x128 .bf16) (x6 : Vec Ideal S64x64 .bf16)
    (x7 : Vec Ideal S128x128 .bf16) (x8 : Vec Ideal S256x256 .bf16) (x9 : Vec Ideal S32x32 .bf16) (x10 : Vec Ideal S64x32 .bf16)
    (x11 : Vec Ideal S128x64 .bf16) (q : Fin 32) :
    out0_12 (F := Ideal) x0 x1 x2 x3 x4 x5 x6 x7 x8 x9 x10 x11 (ix2 p q)
      = netK (WtsK.mk x1 x2 x3 x4 x5 x6 x7 x8 x9 x10 x11) (fun k => x0 (ix2 p k)) q := by
  unfold out0_12
  rw [View.canon_unit_zero hz]
  simp only [View.ld_unit_zero (S := S4000x16) hz, View.ld_unit_zero (S := S16x32) hz, View.ld_unit_zero (S := S32x32) hz, View.ld_unit_zero (S := S32x96) hz, View.ld_unit_zero (S := S64x192) hz, View.ld_unit_zero (S := S128x128) hz, View.ld_unit_zero (S := S64x64) hz, View.ld_unit_zero (S := S256x256) hz, View.ld_unit_zero (S := S64x32) hz, View.ld_unit_zero (S := S128x64) hz]
  exact body_row (WtsK.mk x1 x2 x3 x4 x5 x6 x7 x8 x9 x10 x11) x0 p q

end Cert.KernelIdeal.KerRows

end
-- ==== Proof.Prep.lean ====
/-
  What the eleven weight arrays hold when the kernel's region is entered.

  Before the region the host casts every weight to a 16-bit format (the identity on the extended reals), joins some
  of them column-wise, and builds three 0/1 matrices: the C×C identity matrix — the row number plus zero compared with
  the column number as 32-bit words, the truth value read as a number — with every row repeated twice (a new middle
  axis of extent two, then the first two axes merged). Entry (j, n) of such a matrix is entry (j / 2, n) of the
  identity matrix: one exactly when j / 2 = n, which is RowNet.pairMat. Each array is read back here as a function of the
  argument arrays: an argument itself, RowNet.hcat of two arguments, or RowNet.hcat of an argument and a pair matrix.
-/
import proofs.«171480_j6889127543366_2_alg».proof.Proof.Gen.KernelIdeal.Frame
import proofs.«171480_j6889127543366_2_alg».proof.Proof.LibRowNet
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Prep

open Cert.KernelIdeal Cert.KernelIdeal.Gen Idealize.ShloMosaic Idealize.ShloMosaic.TcCoe Idealize.SL.Sem
  Idealize.ShloMosaic.ValueIdx RowNet

variable (m : (ℓ : Loc nD τ sig) → Buf (Elt Ideal) ℓ) (c : Dev nD)

/-- A column-wise concatenation of two matrices with the same number of rows is their side-by-side join. -/
theorem concat_hcat {K A B N : ℕ} (hN : N = A + B) (a : Mat K A) (b : Mat K B)
    (h : Shape.Concatenates [(⟨2, ![K, A]⟩ : Shape), ⟨2, ![K, B]⟩] ⟨2, ![K, N]⟩ 1) :
    concatenate (⟨2, ![K, N]⟩ : Shape) 1 [⟨⟨2, ![K, A]⟩, a⟩, ⟨⟨2, ![K, B]⟩, b⟩] h = hcat hN a b := by
  funext i
  obtain ⟨k, n, rfl⟩ : ∃ (k : Fin K) (n : Fin N), i = ix2 k n := ⟨i 0, i 1, eq_ix2 i⟩
  unfold hcat catv
  by_cases hn : n.val < A
  · rw [dif_pos (show ((ix2 k n : (⟨2, ![K, N]⟩ : Shape).Idx) 1).val < A from hn)]
    exact concatenate_pair_apply_left (1 : Fin 2) a b h (ix2 k n) rfl (ix2 k ⟨n.val, hn⟩)
      (by intro b; fin_cases b <;> rfl)
  · rw [dif_neg (show ¬ ((ix2 k n : (⟨2, ![K, N]⟩ : Shape).Idx) 1).val < A from hn)]
    exact concatenate_pair_apply_right (1 : Fin 2) a b h (ix2 k n) rfl rfl
      (ix2 k ⟨n.val - A, by have := n.isLt; omega⟩)
      (by intro b hb; fin_cases b
          · rfl
          · exact absurd rfl hb)
      (by show n.val - A + A = n.val; omega)

/-- The same with the narrowing format change on top, which is the identity on the extended reals. -/
theorem truncf_concat_hcat {K A B N : ℕ} (hN : N = A + B) (a : Mat K A) (b : Mat K B)
    (h : Shape.Concatenates [(⟨2, ![K, A]⟩ : Shape), ⟨2, ![K, B]⟩] ⟨2, ![K, N]⟩ 1) (hb : FTy.bits .bf16 < FTy.bits .f32) :
    (truncf .bf16 (concatenate (⟨2, ![K, N]⟩ : Shape) 1 [⟨⟨2, ![K, A]⟩, a⟩, ⟨⟨2, ![K, B]⟩, b⟩] h
        : FVec Ideal (⟨2, ![K, N]⟩ : Shape) .f32) hb : (⟨2, ![K, N]⟩ : Shape).Idx → EReal) = hcat hN a b :=
  concat_hcat hN a b h

/-- The 0/1 pair matrix as the host builds it: the C×C identity matrix (row number plus zero compared with the column
    number, as 32-bit words, the truth value read as a number), every row repeated twice. Entry (j, n) of the result
    is entry (j / 2, n) of the identity matrix. -/
theorem pair_build {N C : ℕ} (hN : N = 2 * C) (hC : C < 2 ^ 32)
    (hb0 : (⟨0, ![]⟩ : Shape).BroadcastsInDim (⟨2, ![C, C]⟩ : Shape) (![] : Fin 0 → Fin 2))
    (hb : (⟨2, ![C, C]⟩ : Shape).BroadcastsInDim (⟨3, ![C, 2, C]⟩ : Shape) (![0, 2] : Fin 2 → Fin 3))
    (hs : (⟨3, ![C, 2, C]⟩ : Shape).ShapeCasts (⟨2, ![N, C]⟩ : Shape)) :
    (shapeCast (⟨2, ![N, C]⟩ : Shape)
      (broadcastInDim (⟨3, ![C, 2, C]⟩ : Shape) ![0, 2] hb
        (uitofp (F := Ideal) .f32
          (cmpi .eq (addi (iotaInDim (⟨2, ![C, C]⟩ : Shape) 32 0)
              (broadcastInDim (⟨2, ![C, C]⟩ : Shape) ![] hb0 (constantI (⟨0, ![]⟩ : Shape) 32 0#32)))
            (iotaInDim (⟨2, ![C, C]⟩ : Shape) 32 1)))) hs : (⟨2, ![N, C]⟩ : Shape).Idx → EReal)
      = pairMat N C := by
  funext i
  obtain ⟨j, n, rfl⟩ : ∃ (j : Fin N) (n : Fin C), i = ix2 j n := ⟨i 0, i 1, eq_ix2 i⟩
  have hj := j.isLt
  have hn := n.isLt
  have ha : j.val / 2 < C := by omega
  rw [shapeCast_apply _ hs (ix2 j n) (ix3 ⟨j.val / 2, ha⟩ ⟨j.val % 2, Nat.mod_lt _ (by norm_num)⟩ n)
    (by rewrite [Shape.rowMajor_val_two, Shape.rowMajor_val_three]
        show (j.val / 2 * 2 + j.val % 2) * C + n.val = j.val * C + n.val
        have : j.val / 2 * 2 + j.val % 2 = j.val := by omega
        rw [this])]
  rw [broadcastInDim_apply _ hb _ (ix3 ⟨j.val / 2, ha⟩ ⟨j.val % 2, Nat.mod_lt _ (by norm_num)⟩ n) (ix2 ⟨j.val / 2, ha⟩ n)
    (by intro a; fin_cases a
        · show j.val / 2 = if C = 1 then 0 else j.val / 2
          split <;> omega
        · show n.val = if C = 1 then 0 else n.val
          split <;> omega)]
  show ((((BitVec.ofBool (BitVec.ofNat 32 (j.val / 2) + 0#32 == BitVec.ofNat 32 n.val)).toNat : ℝ) : EReal))
    = if j.val / 2 = n.val then 1 else 0
  rw [BitVec.add_zero]
  by_cases h : j.val / 2 = n.val
  · rw [if_pos h, h]; simp
  · rw [if_neg h]
    have hne : BitVec.ofNat 32 (j.val / 2) ≠ BitVec.ofNat 32 n.val := by
      intro e
      have := congrArg BitVec.toNat e
      rw [BitVec.toNat_ofNat, BitVec.toNat_ofNat, Nat.mod_eq_of_lt (by omega), Nat.mod_eq_of_lt (by omega)] at this
      exact h this
    simp [hne]

/-! ## The eleven weight arrays when the region is entered -/

theorem prep_v24 : (V m c main_v24 : S16x32.Idx → EReal) = (m ((c : Thread nD τ).loc main_arg2) : S16x32.Idx → EReal) := by
  dsimp only [Gen.V, Gen.hostOps0]
  after_results_simp
  rfl

theorem prep_v25 : (V m c main_v25 : S32x32.Idx → EReal) = (m ((c : Thread nD τ).loc main_arg3) : S32x32.Idx → EReal) := by
  dsimp only [Gen.V, Gen.hostOps0]
  after_results_simp
  rfl

theorem prep_v27 : (V m c main_v27 : S32x96.Idx → EReal) = hcat rfl (m ((c : Thread nD τ).loc main_arg4) : S32x64.Idx → EReal) (m ((c : Thread nD τ).loc main_arg6) : S32x32.Idx → EReal) := by
  dsimp only [Gen.V, Gen.hostOps0]
  after_results_simp
  refine (truncf_concat_hcat (K := 32) (A := 64) (B := 32) (N := 96) rfl _ _ _ _).trans ?_
  congr 1

theorem prep_v29 : (V m c main_v29 : S64x192.Idx → EReal) = hcat rfl (m ((c : Thread nD τ).loc main_arg5) : S64x128.Idx → EReal) (m ((c : Thread nD τ).loc main_arg7) : S64x64.Idx → EReal) := by
  dsimp only [Gen.V, Gen.hostOps0]
  after_results_simp
  refine (truncf_concat_hcat (K := 64) (A := 128) (B := 64) (N := 192) rfl _ _ _ _).trans ?_
  congr 1

theorem prep_v30 : (V m c main_v30 : S128x128.Idx → EReal) = (m ((c : Thread nD τ).loc main_arg8) : S128x128.Idx → EReal) := by
  dsimp only [Gen.V, Gen.hostOps0]
  after_results_simp
  rfl

theorem prep_v32 : (V m c main_v32 : S64x64.Idx → EReal) = hcat rfl (m ((c : Thread nD τ).loc main_arg9) : S64x32.Idx → EReal) (pairMat 64 32) := by
  dsimp only [Gen.V, Gen.hostOps0]
  after_results_simp
  refine (truncf_concat_hcat (K := 64) (A := 32) (B := 32) (N := 64) rfl _ _ _ _).trans ?_
  congr 1
  after_results_simp
  exact pair_build (N := 64) (C := 32) rfl (by norm_num) _ _ _

theorem prep_v34 : (V m c main_v34 : S128x128.Idx → EReal) = hcat rfl (m ((c : Thread nD τ).loc main_arg10) : S128x64.Idx → EReal) (pairMat 128 64) := by
  dsimp only [Gen.V, Gen.hostOps0]
  after_results_simp
  refine (truncf_concat_hcat (K := 128) (A := 64) (B := 64) (N := 128) rfl _ _ _ _).trans ?_
  congr 1
  after_results_simp
  exact pair_build (N := 128) (C := 64) rfl (by norm_num) _ _ _

theorem prep_v36 : (V m c main_v36 : S256x256.Idx → EReal) = hcat rfl (m ((c : Thread nD τ).loc main_arg11) : S256x128.Idx → EReal) (pairMat 256 128) := by
  dsimp only [Gen.V, Gen.hostOps0]
  after_results_simp
  refine (truncf_concat_hcat (K := 256) (A := 128) (B := 128) (N := 256) rfl _ _ _ _).trans ?_
  congr 1
  after_results_simp
  exact pair_build (N := 256) (C := 128) rfl (by norm_num) _ _ _

theorem prep_v37 : (V m c main_v37 : S32x32.Idx → EReal) = (m ((c : Thread nD τ).loc main_arg12) : S32x32.Idx → EReal) := by
  dsimp only [Gen.V, Gen.hostOps0]
  after_results_simp
  rfl

theorem prep_v38 : (V m c main_v38 : S64x32.Idx → EReal) = (m ((c : Thread nD τ).loc main_arg13) : S64x32.Idx → EReal) := by
  dsimp only [Gen.V, Gen.hostOps0]
  after_results_simp
  rfl

theorem prep_v39 : (V m c main_v39 : S128x64.Idx → EReal) = (m ((c : Thread nD τ).loc main_arg14) : S128x64.Idx → EReal) := by
  dsimp only [Gen.V, Gen.hostOps0]
  after_results_simp
  rfl

end Cert.KernelIdeal.Prep

end
-- ==== Proof.LibRowFuse.lean ====
/-
  The fused arrangement of the per-row network equals the two-pass arrangement.

  Three facts carry the whole argument, all of them over the extended reals and none of them needing distributivity
  or cancellation:
  * a product with two matrices joined column-wise, cut back apart, is the two separate products (a pure index fact:
    column c of the first stretch is column c of the first matrix, column A + c is column c of the second), and the
    maximum with zero is taken entry by entry, so cutting commutes with it;
  * the product with the 0/1 matrix whose entry (j, c) is one exactly when j / 2 = c adds the neighbouring entries
    2c and 2c+1: x * 1 = x and x * 0 = 0 hold for every extended real, infinite ones included, so the sum over j
    collapses to the two indices with j / 2 = c;
  * hence one decoder stage in the fused arrangement is the decoder stage in the two-pass arrangement, and the two
    networks agree stage by stage.
-/
import proofs.«171480_j6889127543366_2_alg».proof.Proof.LibRowNet

noncomputable section

open scoped BigOperators

namespace RowNet

open Idealize.ShloMosaic Idealize.ShloMosaic.ValueIdx

/-! ## Index facts -/

/-- The joined matrix at row k, column n is the side-by-side row of the two matrices' rows k, at n. -/
theorem hcat_ix2 {K A B N : ℕ} (hN : N = A + B) (a : Mat K A) (b : Mat K B) (k : Fin K) (n : Fin N) :
    hcat hN a b (ix2 k n) = catv hN (fun c => a (ix2 k c)) (fun c => b (ix2 k c)) n := rfl

/-- Left of the seam a side-by-side vector is its first part. -/
theorem catv_lt {A B C : ℕ} (hC : C = A + B) (u : Fin A → EReal) (v : Fin B → EReal) (j : Fin C)
    (h : j.val < A) : catv hC u v j = u ⟨j.val, h⟩ := by
  unfold catv; rw [dif_pos h]

/-- From the seam on a side-by-side vector is its second part. -/
theorem catv_ge {A B C : ℕ} (hC : C = A + B) (u : Fin A → EReal) (v : Fin B → EReal) (j : Fin C)
    (h : ¬ j.val < A) : catv hC u v j = v ⟨j.val - A, by have := j.isLt; omega⟩ := by
  unfold catv; rw [dif_neg h]

/-- The first A columns of a product with a joined matrix are the product with the first matrix. -/
theorem sl_lin_hcat_left {K A B N : ℕ} (hN : N = A + B) (a : Mat K A) (b : Mat K B) (v : Fin K → EReal)
    (h : 0 + A ≤ N) (c : Fin A) : sl 0 h (lin (hcat hN a b) v) c = lin a v c := by
  unfold sl lin
  refine Finset.sum_congr rfl (fun k _ => ?_)
  have hc : (⟨0 + c.val, by have := c.isLt; omega⟩ : Fin N).val < A := by
    show 0 + c.val < A
    have := c.isLt; omega
  rw [hcat_ix2, catv_lt hN _ _ _ hc]
  have e : (⟨(⟨0 + c.val, by have := c.isLt; omega⟩ : Fin N).val, hc⟩ : Fin A) = c := Fin.ext (Nat.zero_add _)
  rw [e]

/-- The last B columns of a product with a joined matrix are the product with the second matrix. -/
theorem sl_lin_hcat_right {K A B N : ℕ} (hN : N = A + B) (a : Mat K A) (b : Mat K B) (v : Fin K → EReal)
    (h : A + B ≤ N) (c : Fin B) : sl A h (lin (hcat hN a b) v) c = lin b v c := by
  unfold sl lin
  refine Finset.sum_congr rfl (fun k _ => ?_)
  have hc : ¬ (⟨A + c.val, by have := c.isLt; omega⟩ : Fin N).val < A := by
    show ¬ A + c.val < A
    omega
  rw [hcat_ix2, catv_ge hN _ _ _ hc]
  have e : (⟨(⟨A + c.val, by have := c.isLt; omega⟩ : Fin N).val - A, by
      show A + c.val - A < B
      have := c.isLt; omega⟩ : Fin B) = c := Fin.ext (by show A + c.val - A = c.val; omega)
  rw [e]

/-- Cutting a stretch out commutes with the entrywise maximum with zero. -/
theorem sl_act {K N A : ℕ} (W : Mat K N) (v : Fin K → EReal) (off : ℕ) (h : off + A ≤ N) (c : Fin A) :
    sl off h (act W v) c = max (sl off h (lin W v) c) 0 := rfl

/-- The first A columns of an act layer with a joined matrix are the act layer with the first matrix. -/
theorem sl_act_hcat_left {K A B N : ℕ} (hN : N = A + B) (a : Mat K A) (b : Mat K B) (v : Fin K → EReal)
    (h : 0 + A ≤ N) (c : Fin A) : sl 0 h (act (hcat hN a b) v) c = act a v c := by
  rw [sl_act, sl_lin_hcat_left]; rfl

/-- The last B columns of an act layer with a joined matrix are the act layer with the second matrix. -/
theorem sl_act_hcat_right {K A B N : ℕ} (hN : N = A + B) (a : Mat K A) (b : Mat K B) (v : Fin K → EReal)
    (h : A + B ≤ N) (c : Fin B) : sl A h (act (hcat hN a b) v) c = act b v c := by
  rw [sl_act, sl_lin_hcat_right]; rfl

/-! ## The pairing matrix adds neighbours -/

theorem pairMat_ix2 (N C : ℕ) (j : Fin N) (c : Fin C) :
    pairMat N C (ix2 j c) = if j.val / 2 = c.val then 1 else 0 := rfl

/-- The product with the pairing matrix is the sum of the neighbouring entries 2c and 2c+1. -/
theorem lin_pairMat {N C : ℕ} (hN : N = 2 * C) (v : Fin N → EReal) (c : Fin C) :
    lin (pairMat N C) v c = pairsum hN v c := by
  unfold lin pairsum
  simp only [pairMat_ix2, mul_ite, mul_one, mul_zero]
  rw [← Finset.sum_filter, Fin.sum_univ_two, zero_add]
  have hc := c.isLt
  have hne : (⟨2 * c.val + 0, by omega⟩ : Fin N) ≠ ⟨2 * c.val + 1, by omega⟩ := by
    intro h
    have := Fin.ext_iff.mp h
    simp at this
  have hf : (Finset.univ.filter (fun j : Fin N => j.val / 2 = c.val))
      = {(⟨2 * c.val + 0, by omega⟩ : Fin N), ⟨2 * c.val + 1, by omega⟩} := by
    ext j
    simp only [Finset.mem_filter, Finset.mem_univ, true_and, Finset.mem_insert, Finset.mem_singleton,
      Fin.ext_iff]
    omega
  rw [hf, Finset.sum_pair hne]
  rfl

/-! ## One decoder stage -/

/-- A decoder stage whose joint matrix is the mixing matrix joined with the pairing matrix is the two-pass stage. -/
theorem decK_hcat {C D N : ℕ} (hc : N = C + C) (hp : N = 2 * C) (Wm : Mat N C) (Wu : Mat C D)
    (x lat : Fin C → EReal) :
    decK hc (hcat hc Wm (pairMat N C)) Wu x lat = dec hc hp Wm Wu x lat := by
  unfold decK dec
  congr 1
  funext k
  rw [sl_lin_hcat_left, sl_lin_hcat_right, lin_pairMat hp]
  rfl

/-! ## The network, stage by stage -/

theorem ke1_fuse (W : Wts) (x : Fin 16 → EReal) : ke1 (fuse W) x = e1 W x := rfl

theorem ke2_fuse (W : Wts) (x : Fin 16 → EReal) : ke2 (fuse W) x = e2 W x := by
  funext c
  show sl 0 _ (act (hcat rfl W.w4 W.w6) (ke1 (fuse W) x)) c = act W.w4 (e1 W x) c
  rw [sl_act_hcat_left, ke1_fuse]

theorem klat1_fuse (W : Wts) (x : Fin 16 → EReal) : klat1 (fuse W) x = act W.w6 (e1 W x) := by
  funext c
  show sl 64 _ (act (hcat rfl W.w4 W.w6) (ke1 (fuse W) x)) c = act W.w6 (e1 W x) c
  rw [sl_act_hcat_right, ke1_fuse]

theorem ke3_fuse (W : Wts) (x : Fin 16 → EReal) : ke3 (fuse W) x = e3 W x := by
  funext c
  show sl 0 _ (act (hcat rfl W.w5 W.w7) (ke2 (fuse W) x)) c = act W.w5 (e2 W x) c
  rw [sl_act_hcat_left, ke2_fuse]

theorem klat2_fuse (W : Wts) (x : Fin 16 → EReal) : klat2 (fuse W) x = act W.w7 (e2 W x) := by
  funext c
  show sl 128 _ (act (hcat rfl W.w5 W.w7) (ke2 (fuse W) x)) c = act W.w7 (e2 W x) c
  rw [sl_act_hcat_right, ke2_fuse]

theorem klat3_fuse (W : Wts) (x : Fin 16 → EReal) : klat3 (fuse W) x = act W.w8 (e3 W x) := by
  show act W.w8 (ke3 (fuse W) x) = act W.w8 (e3 W x)
  rw [ke3_fuse]

theorem kd3_fuse (W : Wts) (x : Fin 16 → EReal) : kd3 (fuse W) x = d3 W x := by
  show decK rfl (hcat rfl W.w11 (pairMat 256 128)) W.w14 (ke3 (fuse W) x) (klat3 (fuse W) x) = d3 W x
  rw [decK_hcat rfl rfl, ke3_fuse, klat3_fuse]
  rfl

theorem kd2_fuse (W : Wts) (x : Fin 16 → EReal) : kd2 (fuse W) x = d2 W x := by
  show decK rfl (hcat rfl W.w10 (pairMat 128 64)) W.w13 (kd3 (fuse W) x) (klat2 (fuse W) x) = d2 W x
  rw [decK_hcat rfl rfl, kd3_fuse, klat2_fuse]
  rfl

/-- The fused arrangement built from the thirteen weights computes the two-pass network. -/
theorem netK_fuse (W : Wts) (x : Fin 16 → EReal) : netK (fuse W) x = net W x := by
  show decK rfl (hcat rfl W.w9 (pairMat 64 32)) W.w12 (kd2 (fuse W) x) (klat1 (fuse W) x) = net W x
  rw [decK_hcat rfl rfl, kd2_fuse, klat1_fuse]
  rfl

end RowNet

end
-- ==== Proof.Final.lean ====
/-
  From blocks to the array. Every grid point t loads rows 4000 t … 4000 t + 3999 of the feature array and the WHOLE of
  each of the eleven weight arrays, and stores rows 4000 t … 4000 t + 3999 of the result. Entry (p, c) of the stored
  block is the fused per-row network of row 4000 t + p with the fused matrices, which is the two-pass network net of that
  row with the thirteen weights; the 125 blocks tile the 500000 rows, so the result array ends holding
  G (weights) (features): row n is net of row n.
-/
import proofs.«171480_j6889127543366_2_alg».proof.Proof.Gen.KernelIdeal.Value
import proofs.«171480_j6889127543366_2_alg».proof.Proof.KerRows
import proofs.«171480_j6889127543366_2_alg».proof.Proof.Prep
import proofs.«171480_j6889127543366_2_alg».proof.Proof.LibRowFuse

noncomputable section

namespace Cert.KernelIdeal.Final

open Cert.KernelIdeal Cert.KernelIdeal.Gen Idealize.ShloMosaic Idealize.ShloMosaic.TcCoe Idealize.SL.Sem
open Idealize.ShloMosaic.ValueIdx RowNet
open Idealize.ShloMosaic.Pipeline (Dat)

variable (m : (ℓ : Loc nD τ sig) → Buf (Elt Ideal) ℓ) (ρ : Dev nD → PrngReg)

/-- The thirteen weight arrays as launched. -/
def wts (c : Dev nD) : Wts where
  w2 := (m ((c : Thread nD τ).loc main_arg2))
  w3 := (m ((c : Thread nD τ).loc main_arg3))
  w4 := (m ((c : Thread nD τ).loc main_arg4))
  w5 := (m ((c : Thread nD τ).loc main_arg5))
  w6 := (m ((c : Thread nD τ).loc main_arg6))
  w7 := (m ((c : Thread nD τ).loc main_arg7))
  w8 := (m ((c : Thread nD τ).loc main_arg8))
  w9 := (m ((c : Thread nD τ).loc main_arg9))
  w10 := (m ((c : Thread nD τ).loc main_arg10))
  w11 := (m ((c : Thread nD τ).loc main_arg11))
  w12 := (m ((c : Thread nD τ).loc main_arg12))
  w13 := (m ((c : Thread nD τ).loc main_arg13))
  w14 := (m ((c : Thread nD τ).loc main_arg14))

/-- What the result array ends holding: row n is the network of row n of the feature array. -/
def result (c : Dev nD) : S500000x32.Idx → EReal := G (wts m c) (m ((c : Thread nD τ).loc main_arg0))

theorem hz : (![0, 0] : Fin 2 → Nat) = fun _ => 0 := funext fun a => by fin_cases a <;> rfl

theorem hN : cfg0.N = 125 := N_0

/-- The feature window and the result window move one block of 4000 rows per point; -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
/-- the weight windows stay at block (0, 0). -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Window 1's block at every point is the whole of its array. -/
theorem iblk1 (c : Dev nD) (t : Fin cfg0.N) : (iblk m c 1 t : S16x32.Idx → EReal) = (V m c main_v24 : S16x32.Idx → EReal) := by
  obtain ⟨e0, e1⟩ := idx1 t
  funext y
  show V m c main_v24 (((cfg0.win 1).blk t).view.emb y) = V m c main_v24 y
  refine congrArg (V m c main_v24) (funext fun a => Fin.ext ?_)
  match a with
  | ⟨0, _⟩ => show win0_1.index t (0 : Fin 2) * 16 + 1 * (y 0).val = (y 0).val; omega
  | ⟨1, _⟩ => show win0_1.index t (1 : Fin 2) * 32 + 1 * (y 1).val = (y 1).val; omega

/-- Window 2's block at every point is the whole of its array. -/
theorem iblk2 (c : Dev nD) (t : Fin cfg0.N) : (iblk m c 2 t : S32x32.Idx → EReal) = (V m c main_v25 : S32x32.Idx → EReal) := by
  obtain ⟨e0, e1⟩ := idx2 t
  funext y
  show V m c main_v25 (((cfg0.win 2).blk t).view.emb y) = V m c main_v25 y
  refine congrArg (V m c main_v25) (funext fun a => Fin.ext ?_)
  match a with
  | ⟨0, _⟩ => show win0_2.index t (0 : Fin 2) * 32 + 1 * (y 0).val = (y 0).val; omega
  | ⟨1, _⟩ => show win0_2.index t (1 : Fin 2) * 32 + 1 * (y 1).val = (y 1).val; omega

/-- Window 3's block at every point is the whole of its array. -/
theorem iblk3 (c : Dev nD) (t : Fin cfg0.N) : (iblk m c 3 t : S32x96.Idx → EReal) = (V m c main_v27 : S32x96.Idx → EReal) := by
  obtain ⟨e0, e1⟩ := idx3 t
  funext y
  show V m c main_v27 (((cfg0.win 3).blk t).view.emb y) = V m c main_v27 y
  refine congrArg (V m c main_v27) (funext fun a => Fin.ext ?_)
  match a with
  | ⟨0, _⟩ => show win0_3.index t (0 : Fin 2) * 32 + 1 * (y 0).val = (y 0).val; omega
  | ⟨1, _⟩ => show win0_3.index t (1 : Fin 2) * 96 + 1 * (y 1).val = (y 1).val; omega

/-- Window 4's block at every point is the whole of its array. -/
theorem iblk4 (c : Dev nD) (t : Fin cfg0.N) : (iblk m c 4 t : S64x192.Idx → EReal) = (V m c main_v29 : S64x192.Idx → EReal) := by
  obtain ⟨e0, e1⟩ := idx4 t
  funext y
  show V m c main_v29 (((cfg0.win 4).blk t).view.emb y) = V m c main_v29 y
  refine congrArg (V m c main_v29) (funext fun a => Fin.ext ?_)
  match a with
  | ⟨0, _⟩ => show win0_4.index t (0 : Fin 2) * 64 + 1 * (y 0).val = (y 0).val; omega
  | ⟨1, _⟩ => show win0_4.index t (1 : Fin 2) * 192 + 1 * (y 1).val = (y 1).val; omega

/-- Window 5's block at every point is the whole of its array. -/
theorem iblk5 (c : Dev nD) (t : Fin cfg0.N) : (iblk m c 5 t : S128x128.Idx → EReal) = (V m c main_v30 : S128x128.Idx → EReal) := by
  obtain ⟨e0, e1⟩ := idx5 t
  funext y
  show V m c main_v30 (((cfg0.win 5).blk t).view.emb y) = V m c main_v30 y
  refine congrArg (V m c main_v30) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block at every point is the whole of its array. -/
theorem iblk6 (c : Dev nD) (t : Fin cfg0.N) : (iblk m c 6 t : S64x64.Idx → EReal) = (V m c main_v32 : S64x64.Idx → EReal) := by
  obtain ⟨e0, e1⟩ := idx6 t
  funext y
  show V m c main_v32 (((cfg0.win 6).blk t).view.emb y) = V m c main_v32 y
  refine congrArg (V m c main_v32) (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

/-- Window 7's block at every point is the whole of its array. -/
theorem iblk7 (c : Dev nD) (t : Fin cfg0.N) : (iblk m c 7 t : S128x128.Idx → EReal) = (V m c main_v34 : S128x128.Idx → EReal) := by
  obtain ⟨e0, e1⟩ := idx7 t
  funext y
  show V m c main_v34 (((cfg0.win 7).blk t).view.emb y) = V m c main_v34 y
  refine congrArg (V m c main_v34) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block at every point is the whole of its array. -/
theorem iblk8 (c : Dev nD) (t : Fin cfg0.N) : (iblk m c 8 t : S256x256.Idx → EReal) = (V m c main_v36 : S256x256.Idx → EReal) := by
  obtain ⟨e0, e1⟩ := idx8 t
  funext y
  show V m c main_v36 (((cfg0.win 8).blk t).view.emb y) = V m c main_v36 y
  refine congrArg (V m c main_v36) (funext fun a => Fin.ext ?_)
  match a with
  | ⟨0, _⟩ => show win0_8.index t (0 : Fin 2) * 256 + 1 * (y 0).val = (y 0).val; omega
  | ⟨1, _⟩ => show win0_8.index t (1 : Fin 2) * 256 + 1 * (y 1).val = (y 1).val; omega

/-- Window 9's block at every point is the whole of its array. -/
theorem iblk9 (c : Dev nD) (t : Fin cfg0.N) : (iblk m c 9 t : S32x32.Idx → EReal) = (V m c main_v37 : S32x32.Idx → EReal) := by
  obtain ⟨e0, e1⟩ := idx9 t
  funext y
  show V m c main_v37 (((cfg0.win 9).blk t).view.emb y) = V m c main_v37 y
  refine congrArg (V m c main_v37) (funext fun a => Fin.ext ?_)
  match a with
  | ⟨0, _⟩ => show win0_9.index t (0 : Fin 2) * 32 + 1 * (y 0).val = (y 0).val; omega
  | ⟨1, _⟩ => show win0_9.index t (1 : Fin 2) * 32 + 1 * (y 1).val = (y 1).val; omega

/-- Window 10's block at every point is the whole of its array. -/
theorem iblk10 (c : Dev nD) (t : Fin cfg0.N) : (iblk m c 10 t : S64x32.Idx → EReal) = (V m c main_v38 : S64x32.Idx → EReal) := by
  obtain ⟨e0, e1⟩ := idx10 t
  funext y
  show V m c main_v38 (((cfg0.win 10).blk t).view.emb y) = V m c main_v38 y
  refine congrArg (V m c main_v38) (funext fun a => Fin.ext ?_)
  match a with
  | ⟨0, _⟩ => show win0_10.index t (0 : Fin 2) * 64 + 1 * (y 0).val = (y 0).val; omega
  | ⟨1, _⟩ => show win0_10.index t (1 : Fin 2) * 32 + 1 * (y 1).val = (y 1).val; omega

/-- Window 11's block at every point is the whole of its array. -/
theorem iblk11 (c : Dev nD) (t : Fin cfg0.N) : (iblk m c 11 t : S128x64.Idx → EReal) = (V m c main_v39 : S128x64.Idx → EReal) := by
  obtain ⟨e0, e1⟩ := idx11 t
  funext y
  show V m c main_v39 (((cfg0.win 11).blk t).view.emb y) = V m c main_v39 y
  refine congrArg (V m c main_v39) (funext fun a => Fin.ext ?_)
  match a with
  | ⟨0, _⟩ => show win0_11.index t (0 : Fin 2) * 128 + 1 * (y 0).val = (y 0).val; omega
  | ⟨1, _⟩ => show win0_11.index t (1 : Fin 2) * 64 + 1 * (y 1).val = (y 1).val; omega

/-- Row p of the feature block at point t is row 4000 t + p of the feature array. -/
theorem iblk0_row (c : Dev nD) (t : Fin cfg0.N) (p : Fin 4000) (k : Fin 16) (hp : t.val * 4000 + p.val < 500000) :
    (iblk m c 0 t : S4000x16.Idx → EReal) (ix2 p k)
      = ((m ((c : Thread nD τ).loc main_arg0)) : S500000x16.Idx → EReal) (ix2 ⟨t.val * 4000 + p.val, hp⟩ k) := by
  obtain ⟨e0, e1⟩ := idx0 t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 4000 + 1 * p.val = t.val * 4000 + p.val; omega
  | ⟨1, _⟩ => show win0_0.index t (1 : Fin 2) * 16 + 1 * k.val = k.val; omega

/-- Entry (p, q) of the result block at point t is entry (4000 t + p, q) of the result array. -/
theorem emb12 (t : Fin cfg0.N) (p : Fin 4000) (q : Fin 32) (hp : t.val * 4000 + p.val < 500000) :
    ((cfg0.win 12).blk t).view.emb (ix2 p q) = (ix2 ⟨t.val * 4000 + p.val, hp⟩ q : S500000x32.Idx) := by
  obtain ⟨e0, e1⟩ := idx12 t
  funext a
  apply Fin.ext
  match a with
  | ⟨0, _⟩ => show win0_12.index t (0 : Fin 2) * 4000 + 1 * p.val = t.val * 4000 + p.val; omega
  | ⟨1, _⟩ => show win0_12.index t (1 : Fin 2) * 32 + 1 * q.val = q.val; omega

/-- The eleven matrices every point loads. -/
abbrev loaded (c : Dev nD) (t : Fin cfg0.N) : WtsK where
  k1 := (iblk m c 1 t : S16x32.Idx → EReal)
  k2 := (iblk m c 2 t : S32x32.Idx → EReal)
  k3 := (iblk m c 3 t : S32x96.Idx → EReal)
  k4 := (iblk m c 4 t : S64x192.Idx → EReal)
  k5 := (iblk m c 5 t : S128x128.Idx → EReal)
  k6 := (iblk m c 6 t : S64x64.Idx → EReal)
  k7 := (iblk m c 7 t : S128x128.Idx → EReal)
  k8 := (iblk m c 8 t : S256x256.Idx → EReal)
  k9 := (iblk m c 9 t : S32x32.Idx → EReal)
  k10 := (iblk m c 10 t : S64x32.Idx → EReal)
  k11 := (iblk m c 11 t : S128x64.Idx → EReal)

set_option maxHeartbeats 1000000 in
/-- They are the fused matrices of the thirteen weights. -/
theorem loaded_eq (c : Dev nD) (t : Fin cfg0.N) : loaded m c t = fuse (wts m c) := by
  have e1 : (loaded m c t).k1 = (fuse (wts m c)).k1 := (iblk1 m c t).trans (Prep.prep_v24 m c)
  have e2 : (loaded m c t).k2 = (fuse (wts m c)).k2 := (iblk2 m c t).trans (Prep.prep_v25 m c)
  have e3 : (loaded m c t).k3 = (fuse (wts m c)).k3 := (iblk3 m c t).trans (Prep.prep_v27 m c)
  have e4 : (loaded m c t).k4 = (fuse (wts m c)).k4 := (iblk4 m c t).trans (Prep.prep_v29 m c)
  have e5 : (loaded m c t).k5 = (fuse (wts m c)).k5 := (iblk5 m c t).trans (Prep.prep_v30 m c)
  have e6 : (loaded m c t).k6 = (fuse (wts m c)).k6 := (iblk6 m c t).trans (Prep.prep_v32 m c)
  have e7 : (loaded m c t).k7 = (fuse (wts m c)).k7 := (iblk7 m c t).trans (Prep.prep_v34 m c)
  have e8 : (loaded m c t).k8 = (fuse (wts m c)).k8 := (iblk8 m c t).trans (Prep.prep_v36 m c)
  have e9 : (loaded m c t).k9 = (fuse (wts m c)).k9 := (iblk9 m c t).trans (Prep.prep_v37 m c)
  have e10 : (loaded m c t).k10 = (fuse (wts m c)).k10 := (iblk10 m c t).trans (Prep.prep_v38 m c)
  have e11 : (loaded m c t).k11 = (fuse (wts m c)).k11 := (iblk11 m c t).trans (Prep.prep_v39 m c)
  exact WtsK_ext e1 e2 e3 e4 e5 e6 e7 e8 e9 e10 e11

/-- What point t writes back is block t of the result. -/
theorem flushed_eq (c : Dev nD) (t : Fin cfg0.N) :
    (dats m 0 c).flushed 12 t = ((cfg0.win 12).blk t).view.read (Elt Ideal) (result m c) := by
  rw [Cert.KernelIdeal.Value.flushed12]
  funext j
  obtain ⟨p, q, rfl⟩ : ∃ (p : Fin 4000) (q : Fin 32), j = ix2 p q := ⟨j 0, j 1, eq_ix2 j⟩
  have ht : t.val < 125 := by have h := t.isLt; have h' := hN; omega
  have hp : t.val * 4000 + p.val < 500000 := by have := p.isLt; omega
  show out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 p q)
    = result m c (((cfg0.win 12).blk t).view.emb (ix2 p q))
  rw [emb12 t p q hp]
  refine (KerRows.out_row p (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) q).trans ?_
  refine (congrArg (fun W => netK W (fun k => (iblk m c 0 t : S4000x16.Idx → EReal) (ix2 p k)) q) (loaded_eq m c t)).trans ?_
  refine (congrFun (netK_fuse (wts m c) _) q).trans ?_
  show net (wts m c) _ q = net (wts m c) _ q
  refine congrArg (fun f => net (wts m c) f q) (funext fun k => ?_)
  exact iblk0_row m c t p k hp

/-- An index of the result array is in point t's block iff each coordinate is in the block's range. -/
theorem mem_blk (t : Fin cfg0.N) (i : S500000x32.Idx) :
    i ∈ ((cfg0.win 12).blk t).view.set ↔ ∀ a : Fin 2, win0_12.index t a * S4000x32.size a ≤ (i a).val
      ∧ (i a).val < win0_12.index t a * S4000x32.size a + S4000x32.size a := by
  show i ∈ ((View.whole main_v40).slice (win0_12.rect t)).set ↔ _
  rw [View.set_slice_whole, Rect.mem_set_unit]
  exact Iff.rfl

/-- The 125 blocks of 4000 rows tile the 500000 rows: row n lies in the block of point n / 4000. -/
theorem cover (i : S500000x32.Idx) :
    ∃ t : Fin cfg0.N, (cfg0.win 12).flush t = true ∧ i ∈ ((cfg0.win 12).blk t).view.set := by
  have hi0 : (i 0).val < 500000 := (i 0).isLt
  have hi1 : (i 1).val < 32 := (i 1).isLt
  have h' := hN
  refine ⟨⟨(i 0).val / 4000, by omega⟩, flush0_12 _, ?_⟩
  rw [mem_blk]
  obtain ⟨e0, e1⟩ := idx12 ⟨(i 0).val / 4000, by omega⟩
  intro a
  match a with
  | ⟨0, _⟩ =>
    show win0_12.index ⟨(i 0).val / 4000, _⟩ (0 : Fin 2) * 4000 ≤ (i 0).val
      ∧ (i 0).val < win0_12.index ⟨(i 0).val / 4000, _⟩ (0 : Fin 2) * 4000 + 4000
    rw [e0]
    show (i 0).val / 4000 * 4000 ≤ (i 0).val ∧ (i 0).val < (i 0).val / 4000 * 4000 + 4000
    omega
  | ⟨1, _⟩ =>
    show win0_12.index ⟨(i 0).val / 4000, _⟩ (1 : Fin 2) * 32 ≤ (i 1).val
      ∧ (i 1).val < win0_12.index ⟨(i 0).val / 4000, _⟩ (1 : Fin 2) * 32 + 32
    omega

/-- The result array after the run. -/
theorem final (c : Dev nD) : (dats m 0 c).arrAt 12 cfg0.N = result m c :=
  (dats m 0 c).arrAt_eq_of_cover 12 (result m c) (fun t _ => flushed_eq m c t) (cover)

end Cert.KernelIdeal.Final

end
-- ==== Proof.RefRows.lean ====
import proofs.«171480_j6889127543366_2_alg».proof.Proof.Gen.ReferenceIdeal.Read
import proofs.«171480_j6889127543366_2_alg».proof.Proof.LibRowNet

/-!
  The reference program, read one row at a time, is the per-row network RowNet.net.

  Every operation of the reference acts on each of the 500000 rows alone. For a fixed row r each intermediate array,
  read at (r, c), is one of the vectors of RowNet: a product with a weight matrix followed by the maximum with zero is
  act, a concatenation along the columns is catv, the reshape to pairs followed by the sum over each pair is pairsum,
  and an elementwise sum is the sum of the two vectors. The stages are read in program order, each from the ones before.
-/

noncomputable section

open scoped BigOperators

namespace Cert.ReferenceIdeal.RefRows

open Cert.ReferenceIdeal Cert.ReferenceIdeal.Gen Cert.ReferenceIdeal.Read Idealize.ShloMosaic Idealize.ShloMosaic.ValueIdx RowNet

/-! ## Reading by coordinates -/

/-- A rank-2 index whose coordinates are a and b is ix2 a b. -/
theorem idx2_ext {n0 n1 : ℕ} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A product with a weight matrix followed by the maximum with zero, read on the row r: if the left operand's row r
    is the vector v, and the two operand indices of the k-th term are (r, k) and (k, c), the entry (r, c) is act W v c. -/
theorem act_of {B K N : ℕ} (prev : Mat B K) (W : Mat K N) (v : Fin K → EReal) (r : Fin B) (c : Fin N)
    (h : ∀ k, prev (ix2 r k) = v k)
    (L : Fin K → (⟨2, ![B, K]⟩ : Shape).Idx) (R : Fin K → (⟨2, ![K, N]⟩ : Shape).Idx)
    (hL : ∀ k, L k = ix2 r k) (hR : ∀ k, R k = ix2 k c) :
    max (∑ k : Fin K, prev (L k) * W (R k)) 0 = act W v c := by
  unfold act lin
  congr 1
  exact Finset.sum_congr rfl fun k _ => by rw [hL k, hR k, h k]

/-- Two arrays joined along the columns, read on the row r: if the rows r of the two pieces are the vectors u and v,
    the row r of the result is u and v side by side. -/
theorem cat_of {B A A' C : ℕ} (hC : C = A + A') (x₁ : Mat B A) (x₂ : Mat B A')
    (h : Shape.Concatenates [(⟨2, ![B, A]⟩ : Shape), (⟨2, ![B, A']⟩ : Shape)] (⟨2, ![B, C]⟩ : Shape) 1)
    (u : Fin A → EReal) (v : Fin A' → EReal) (r : Fin B)
    (hu : ∀ k, x₁ (ix2 r k) = u k) (hv : ∀ k, x₂ (ix2 r k) = v k) (j : Fin C) :
    concatenate (⟨2, ![B, C]⟩ : Shape) 1 [⟨(⟨2, ![B, A]⟩ : Shape), x₁⟩, ⟨(⟨2, ![B, A']⟩ : Shape), x₂⟩] h (ix2 r j)
      = catv hC u v j := by
  unfold catv
  split
  · next hlt =>
    refine (concatenate_pair_apply_left 1 x₁ x₂ h (ix2 r j) rfl (ix2 r ⟨j.val, hlt⟩) (fun b => ?_)).trans (hu _)
    match b with
    | ⟨0, _⟩ => rfl
    | ⟨1, _⟩ => rfl
  · next hge =>
    have hj : j.val - A < A' := by have := j.isLt; omega
    refine (concatenate_pair_apply_right 1 x₁ x₂ h (ix2 r j) rfl rfl (ix2 r ⟨j.val - A, hj⟩) (fun b hb => ?_) ?_).trans
      (hv _)
    · match b with
      | ⟨0, _⟩ => rfl
      | ⟨1, _⟩ => exact absurd rfl hb
    · show j.val - A + A = j.val
      omega

/-- The sum over neighbouring pairs, read on the row r: if the summed array's row r is the vector v, the initial value
    is zero, and the t-th term is the array read at an index with the coordinates (r, 2c + t), the result is
    pairsum v c. -/
theorem pairsum_of {B N C : ℕ} (hN : N = 2 * C) (prev : Mat B N) (v : Fin N → EReal) (r : Fin B) (c : Fin C)
    (h : ∀ j, prev (ix2 r j) = v j) (z : EReal) (hz : z = 0) (f : Fin 2 → EReal)
    (I : Fin 2 → (⟨2, ![B, N]⟩ : Shape).Idx) (hf : ∀ t, f t = prev (I t))
    (hI : ∀ t : Fin 2, ((I t) 0).val = r.val ∧ ((I t) 1).val = 2 * c.val + t.val) :
    z + ∑ t : Fin 2, f t = pairsum hN v c := by
  unfold pairsum
  rw [hz]
  congr 1
  refine Finset.sum_congr rfl fun t _ => ?_
  rw [hf t, idx2_ext (I t) r ⟨2 * c.val + t.val, by have := c.isLt; have := t.isLt; omega⟩ (hI t).1 (hI t).2, h]

/-! ## The zero every maximum is taken against -/

theorem call0_zero (i : S500000x32.Idx) : val_main_call0_v0 (F := Ideal) i = (0 : EReal) := by
  rw [val_main_call0_v0_apply, val_main_call0_cst_apply]; exact Ideal.ofBits_zero_f32
theorem call1_zero (i : S500000x32.Idx) : val_main_call1_v0 (F := Ideal) i = (0 : EReal) := by
  rw [val_main_call1_v0_apply, val_main_call1_cst_apply]; exact Ideal.ofBits_zero_f32
theorem call2_zero (i : S500000x64.Idx) : val_main_call2_v0 (F := Ideal) i = (0 : EReal) := by
  rw [val_main_call2_v0_apply, val_main_call2_cst_apply]; exact Ideal.ofBits_zero_f32
theorem call3_zero (i : S500000x128.Idx) : val_main_call3_v0 (F := Ideal) i = (0 : EReal) := by
  rw [val_main_call3_v0_apply, val_main_call3_cst_apply]; exact Ideal.ofBits_zero_f32
theorem call4_zero (i : S500000x128.Idx) : val_main_call4_v0 (F := Ideal) i = (0 : EReal) := by
  rw [val_main_call4_v0_apply, val_main_call4_cst_apply]; exact Ideal.ofBits_zero_f32
theorem call5_zero (i : S500000x128.Idx) : val_main_call5_v0 (F := Ideal) i = (0 : EReal) := by
  rw [val_main_call5_v0_apply, val_main_call5_cst_apply]; exact Ideal.ofBits_zero_f32
theorem call6_zero (i : S500000x64.Idx) : val_main_call6_v0 (F := Ideal) i = (0 : EReal) := by
  rw [val_main_call6_v0_apply, val_main_call6_cst_apply]; exact Ideal.ofBits_zero_f32
theorem call7_zero (i : S500000x64.Idx) : val_main_call7_v0 (F := Ideal) i = (0 : EReal) := by
  rw [val_main_call7_v0_apply, val_main_call7_cst_apply]; exact Ideal.ofBits_zero_f32
theorem call8_zero (i : S500000x64.Idx) : val_main_call8_v0 (F := Ideal) i = (0 : EReal) := by
  rw [val_main_call8_v0_apply, val_main_call8_cst_apply]; exact Ideal.ofBits_zero_f32
theorem call9_zero (i : S500000x32.Idx) : val_main_call9_v0 (F := Ideal) i = (0 : EReal) := by
  rw [val_main_call9_v0_apply, val_main_call9_cst_apply]; exact Ideal.ofBits_zero_f32
theorem call10_zero (i : S500000x32.Idx) : val_main_call10_v0 (F := Ideal) i = (0 : EReal) := by
  rw [val_main_call10_v0_apply, val_main_call10_cst_apply]; exact Ideal.ofBits_zero_f32
theorem call11_zero (i : S500000x32.Idx) : val_main_call11_v0 (F := Ideal) i = (0 : EReal) := by
  rw [val_main_call11_v0_apply, val_main_call11_cst_apply]; exact Ideal.ofBits_zero_f32
theorem call12_zero (i : S500000x32.Idx) : val_main_call12_v0 (F := Ideal) i = (0 : EReal) := by
  rw [val_main_call12_v0_apply, val_main_call12_cst_apply]; exact Ideal.ofBits_zero_f32

/-! ## The stages, in program order -/

variable (x0 : (⟨S500000x16, .f32⟩ : BufTy).Contents (Elt Ideal))
  (x2 : (⟨S16x32, .f32⟩ : BufTy).Contents (Elt Ideal))
  (x3 : (⟨S32x32, .f32⟩ : BufTy).Contents (Elt Ideal))
  (x4 : (⟨S32x64, .f32⟩ : BufTy).Contents (Elt Ideal))
  (x5 : (⟨S64x128, .f32⟩ : BufTy).Contents (Elt Ideal))
  (x6 : (⟨S32x32, .f32⟩ : BufTy).Contents (Elt Ideal))
  (x7 : (⟨S64x64, .f32⟩ : BufTy).Contents (Elt Ideal))
  (x8 : (⟨S128x128, .f32⟩ : BufTy).Contents (Elt Ideal))
  (x9 : (⟨S64x32, .f32⟩ : BufTy).Contents (Elt Ideal))
  (x10 : (⟨S128x64, .f32⟩ : BufTy).Contents (Elt Ideal))
  (x11 : (⟨S256x128, .f32⟩ : BufTy).Contents (Elt Ideal))
  (x12 : (⟨S32x32, .f32⟩ : BufTy).Contents (Elt Ideal))
  (x13 : (⟨S64x32, .f32⟩ : BufTy).Contents (Elt Ideal))
  (x14 : (⟨S128x64, .f32⟩ : BufTy).Contents (Elt Ideal))

/-- The thirteen weight arrays as the network's weights. -/
local notation "Wt" => RowNet.Wts.mk x2 x3 x4 x5 x6 x7 x8 x9 x10 x11 x12 x13 x14
/-- The row r of the features. -/
local notation:max "row[" r "]" => (fun k => x0 (ix2 r k))
/-- The joined vector of the widest decoder stage on the row r: the encoder's third vector beside its lateral one. -/
local notation:max "cat₃[" r "]" => catv (C := 256) rfl (e3 Wt row[r]) (act x8 (e3 Wt row[r]))
/-- The joined vector of the middle decoder stage on the row r. -/
local notation:max "cat₂[" r "]" => catv (C := 128) rfl (d3 Wt row[r]) (act x7 (e2 Wt row[r]))
/-- The joined vector of the narrowest decoder stage on the row r. -/
local notation:max "cat₁[" r "]" => catv (C := 64) rfl (d2 Wt row[r]) (act x6 (e1 Wt row[r]))

/-- The first layer. -/
theorem v1_row (r : Fin 500000) (c : Fin 32) :
    val_main_v1 (F := Ideal) x0 x2 (ix2 r c) = act x2 row[r] c := by
  rw [val_main_v1_apply, Ideal.maximumf_def, call0_zero, val_main_v0_apply]
  refine act_of (B := 500000) (K := 16) (N := 32) x0 x2 _ r c
    (fun k => rfl)
    (lidx_main_v0 (ix2 r c)) (ridx_main_v0 (ix2 r c)) (fun k => ?_) (fun k => ?_)
  · exact idx2_ext (lidx_main_v0 (ix2 r c) k) r k rfl rfl
  · exact idx2_ext (ridx_main_v0 (ix2 r c) k) k c rfl rfl

/-- The encoder's first vector. -/
theorem v3_row (r : Fin 500000) (c : Fin 32) :
    val_main_v3 (F := Ideal) x0 x2 x3 (ix2 r c) = e1 Wt row[r] c := by
  rw [val_main_v3_apply, Ideal.maximumf_def, call1_zero, val_main_v2_apply]
  refine act_of (B := 500000) (K := 32) (N := 32) (val_main_v1 (F := Ideal) x0 x2) x3 _ r c
    (fun k => v1_row x0 x2 r k)
    (lidx_main_v2 (ix2 r c)) (ridx_main_v2 (ix2 r c)) (fun k => ?_) (fun k => ?_)
  · exact idx2_ext (lidx_main_v2 (ix2 r c) k) r k rfl rfl
  · exact idx2_ext (ridx_main_v2 (ix2 r c) k) k c rfl rfl

/-- The encoder's second vector. -/
theorem v5_row (r : Fin 500000) (c : Fin 64) :
    val_main_v5 (F := Ideal) x0 x2 x3 x4 (ix2 r c) = e2 Wt row[r] c := by
  rw [val_main_v5_apply, Ideal.maximumf_def, call2_zero, val_main_v4_apply]
  refine act_of (B := 500000) (K := 32) (N := 64) (val_main_v3 (F := Ideal) x0 x2 x3) x4 _ r c
    (fun k => v3_row x0 x2 x3 x4 x5 x6 x7 x8 x9 x10 x11 x12 x13 x14 r k)
    (lidx_main_v4 (ix2 r c)) (ridx_main_v4 (ix2 r c)) (fun k => ?_) (fun k => ?_)
  · exact idx2_ext (lidx_main_v4 (ix2 r c) k) r k rfl rfl
  · exact idx2_ext (ridx_main_v4 (ix2 r c) k) k c rfl rfl

/-- The encoder's third vector. -/
theorem v7_row (r : Fin 500000) (c : Fin 128) :
    val_main_v7 (F := Ideal) x0 x2 x3 x4 x5 (ix2 r c) = e3 Wt row[r] c := by
  rw [val_main_v7_apply, Ideal.maximumf_def, call3_zero, val_main_v6_apply]
  refine act_of (B := 500000) (K := 64) (N := 128) (val_main_v5 (F := Ideal) x0 x2 x3 x4) x5 _ r c
    (fun k => v5_row x0 x2 x3 x4 x5 x6 x7 x8 x9 x10 x11 x12 x13 x14 r k)
    (lidx_main_v6 (ix2 r c)) (ridx_main_v6 (ix2 r c)) (fun k => ?_) (fun k => ?_)
  · exact idx2_ext (lidx_main_v6 (ix2 r c) k) r k rfl rfl
  · exact idx2_ext (ridx_main_v6 (ix2 r c) k) k c rfl rfl

/-- The widest stage's lateral vector. -/
theorem v9_row (r : Fin 500000) (c : Fin 128) :
    val_main_v9 (F := Ideal) x0 x2 x3 x4 x5 x8 (ix2 r c) = act x8 (e3 Wt row[r]) c := by
  rw [val_main_v9_apply, Ideal.maximumf_def, call4_zero, val_main_v8_apply]
  refine act_of (B := 500000) (K := 128) (N := 128) (val_main_v7 (F := Ideal) x0 x2 x3 x4 x5) x8 _ r c
    (fun k => v7_row x0 x2 x3 x4 x5 x6 x7 x8 x9 x10 x11 x12 x13 x14 r k)
    (lidx_main_v8 (ix2 r c)) (ridx_main_v8 (ix2 r c)) (fun k => ?_) (fun k => ?_)
  · exact idx2_ext (lidx_main_v8 (ix2 r c) k) r k rfl rfl
  · exact idx2_ext (ridx_main_v8 (ix2 r c) k) k c rfl rfl

/-- The running vector and the lateral vector side by side. -/
theorem v10_row (r : Fin 500000) (j : Fin 256) :
    val_main_v10 (F := Ideal) x0 x2 x3 x4 x5 x8 (ix2 r j) = cat₃[r] j :=
  cat_of (B := 500000) (A := 128) (A' := 128) (C := 256) rfl
    (val_main_v7 (F := Ideal) x0 x2 x3 x4 x5)
    (val_main_v9 (F := Ideal) x0 x2 x3 x4 x5 x8)
    concatenates_S500000x128_S500000x128_S500000x256_d1 (e3 Wt row[r]) (act x8 (e3 Wt row[r])) r
    (fun k => v7_row x0 x2 x3 x4 x5 x6 x7 x8 x9 x10 x11 x12 x13 x14 r k)
    (fun k => v9_row x0 x2 x3 x4 x5 x6 x7 x8 x9 x10 x11 x12 x13 x14 r k) j

/-- The product of the joined vector with the mixing matrix, and the maximum with zero. -/
theorem v12_row (r : Fin 500000) (c : Fin 128) :
    val_main_v12 (F := Ideal) x0 x2 x3 x4 x5 x8 x11 (ix2 r c) = act x11 cat₃[r] c := by
  rw [val_main_v12_apply, Ideal.maximumf_def, call5_zero, val_main_v11_apply]
  refine act_of (B := 500000) (K := 256) (N := 128) (val_main_v10 (F := Ideal) x0 x2 x3 x4 x5 x8) x11 _ r c
    (fun k => v10_row x0 x2 x3 x4 x5 x6 x7 x8 x9 x10 x11 x12 x13 x14 r k)
    (lidx_main_v11 (ix2 r c)) (ridx_main_v11 (ix2 r c)) (fun k => ?_) (fun k => ?_)
  · exact idx2_ext (lidx_main_v11 (ix2 r c) k) r k rfl rfl
  · exact idx2_ext (ridx_main_v11 (ix2 r c) k) k c rfl rfl

/-- The reshape to pairs followed by the sum over each pair adds the neighbouring entries 2c and 2c + 1 of the row: the
    pair (c, t) of the row r sits at the flat position (r · 128 + c) · 2 + t, which is the column 2c + t of the row r. -/
theorem v14_row (r : Fin 500000) (c : Fin 128) :
    val_main_v14 (F := Ideal) x0 x2 x3 x4 x5 x8 (ix2 r c) = pairsum rfl cat₃[r] c := by
  rw [val_main_v14_apply]
  refine pairsum_of (B := 500000) (N := 256) (C := 128) rfl
    (val_main_v10 (F := Ideal) x0 x2 x3 x4 x5 x8) cat₃[r] r c
    (fun j => v10_row x0 x2 x3 x4 x5 x6 x7 x8 x9 x10 x11 x12 x13 x14 r j) _
    (by rw [val_main_cst_apply]; exact Ideal.ofBits_zero_f32)
    (fun t => val_main_v13 (F := Ideal) x0 x2 x3 x4 x5 x8 (idx_main_v14 (ix2 r c) t))
    (fun t => idx_main_v13 (idx_main_v14 (ix2 r c) t))
    (fun t => val_main_v13_apply x0 x2 x3 x4 x5 x8 (idx_main_v14 (ix2 r c) t)) (fun t => ⟨?_, ?_⟩)
  · show ((r.val * 128 + c.val) * 2 + t.val) / 256 = r.val
    have := c.isLt; have := t.isLt; omega
  · show ((r.val * 128 + c.val) * 2 + t.val) % 256 = 2 * c.val + t.val
    have := c.isLt; have := t.isLt; omega

/-- The mixed vector plus the pairwise sums. -/
theorem v15_row (r : Fin 500000) (c : Fin 128) :
    val_main_v15 (F := Ideal) x0 x2 x3 x4 x5 x8 x11 (ix2 r c)
      = act x11 cat₃[r] c + pairsum rfl cat₃[r] c := by
  rw [val_main_v15_apply, Ideal.addf_def,
    v12_row x0 x2 x3 x4 x5 x6 x7 x8 x9 x10 x11 x12 x13 x14,
    v14_row x0 x2 x3 x4 x5 x6 x7 x8 x9 x10 x11 x12 x13 x14]

/-- The decoder stage's output. -/
theorem v17_row (r : Fin 500000) (c : Fin 64) :
    val_main_v17 (F := Ideal) x0 x2 x3 x4 x5 x8 x11 x14 (ix2 r c) = d3 Wt row[r] c := by
  rw [val_main_v17_apply, Ideal.maximumf_def, call6_zero, val_main_v16_apply]
  refine act_of (B := 500000) (K := 128) (N := 64) (val_main_v15 (F := Ideal) x0 x2 x3 x4 x5 x8 x11) x14 _ r c
    (fun k => v15_row x0 x2 x3 x4 x5 x6 x7 x8 x9 x10 x11 x12 x13 x14 r k)
    (lidx_main_v16 (ix2 r c)) (ridx_main_v16 (ix2 r c)) (fun k => ?_) (fun k => ?_)
  · exact idx2_ext (lidx_main_v16 (ix2 r c) k) r k rfl rfl
  · exact idx2_ext (ridx_main_v16 (ix2 r c) k) k c rfl rfl

/-- The middle stage's lateral vector. -/
theorem v19_row (r : Fin 500000) (c : Fin 64) :
    val_main_v19 (F := Ideal) x0 x2 x3 x4 x7 (ix2 r c) = act x7 (e2 Wt row[r]) c := by
  rw [val_main_v19_apply, Ideal.maximumf_def, call7_zero, val_main_v18_apply]
  refine act_of (B := 500000) (K := 64) (N := 64) (val_main_v5 (F := Ideal) x0 x2 x3 x4) x7 _ r c
    (fun k => v5_row x0 x2 x3 x4 x5 x6 x7 x8 x9 x10 x11 x12 x13 x14 r k)
    (lidx_main_v18 (ix2 r c)) (ridx_main_v18 (ix2 r c)) (fun k => ?_) (fun k => ?_)
  · exact idx2_ext (lidx_main_v18 (ix2 r c) k) r k rfl rfl
  · exact idx2_ext (ridx_main_v18 (ix2 r c) k) k c rfl rfl

/-- The running vector and the lateral vector side by side. -/
theorem v20_row (r : Fin 500000) (j : Fin 128) :
    val_main_v20 (F := Ideal) x0 x2 x3 x4 x5 x7 x8 x11 x14 (ix2 r j) = cat₂[r] j :=
  cat_of (B := 500000) (A := 64) (A' := 64) (C := 128) rfl
    (val_main_v17 (F := Ideal) x0 x2 x3 x4 x5 x8 x11 x14)
    (val_main_v19 (F := Ideal) x0 x2 x3 x4 x7)
    concatenates_S500000x64_S500000x64_S500000x128_d1 (d3 Wt row[r]) (act x7 (e2 Wt row[r])) r
    (fun k => v17_row x0 x2 x3 x4 x5 x6 x7 x8 x9 x10 x11 x12 x13 x14 r k)
    (fun k => v19_row x0 x2 x3 x4 x5 x6 x7 x8 x9 x10 x11 x12 x13 x14 r k) j

/-- The product of the joined vector with the mixing matrix, and the maximum with zero. -/
theorem v22_row (r : Fin 500000) (c : Fin 64) :
    val_main_v22 (F := Ideal) x0 x2 x3 x4 x5 x7 x8 x10 x11 x14 (ix2 r c) = act x10 cat₂[r] c := by
  rw [val_main_v22_apply, Ideal.maximumf_def, call8_zero, val_main_v21_apply]
  refine act_of (B := 500000) (K := 128) (N := 64) (val_main_v20 (F := Ideal) x0 x2 x3 x4 x5 x7 x8 x11 x14) x10 _ r c
    (fun k => v20_row x0 x2 x3 x4 x5 x6 x7 x8 x9 x10 x11 x12 x13 x14 r k)
    (lidx_main_v21 (ix2 r c)) (ridx_main_v21 (ix2 r c)) (fun k => ?_) (fun k => ?_)
  · exact idx2_ext (lidx_main_v21 (ix2 r c) k) r k rfl rfl
  · exact idx2_ext (ridx_main_v21 (ix2 r c) k) k c rfl rfl

/-- The reshape to pairs followed by the sum over each pair adds the neighbouring entries 2c and 2c + 1 of the row: the
    pair (c, t) of the row r sits at the flat position (r · 64 + c) · 2 + t, which is the column 2c + t of the row r. -/
theorem v24_row (r : Fin 500000) (c : Fin 64) :
    val_main_v24 (F := Ideal) x0 x2 x3 x4 x5 x7 x8 x11 x14 (ix2 r c) = pairsum rfl cat₂[r] c := by
  rw [val_main_v24_apply]
  refine pairsum_of (B := 500000) (N := 128) (C := 64) rfl
    (val_main_v20 (F := Ideal) x0 x2 x3 x4 x5 x7 x8 x11 x14) cat₂[r] r c
    (fun j => v20_row x0 x2 x3 x4 x5 x6 x7 x8 x9 x10 x11 x12 x13 x14 r j) _
    (by rw [val_main_cst_0_apply]; exact Ideal.ofBits_zero_f32)
    (fun t => val_main_v23 (F := Ideal) x0 x2 x3 x4 x5 x7 x8 x11 x14 (idx_main_v24 (ix2 r c) t))
    (fun t => idx_main_v23 (idx_main_v24 (ix2 r c) t))
    (fun t => val_main_v23_apply x0 x2 x3 x4 x5 x7 x8 x11 x14 (idx_main_v24 (ix2 r c) t)) (fun t => ⟨?_, ?_⟩)
  · show ((r.val * 64 + c.val) * 2 + t.val) / 128 = r.val
    have := c.isLt; have := t.isLt; omega
  · show ((r.val * 64 + c.val) * 2 + t.val) % 128 = 2 * c.val + t.val
    have := c.isLt; have := t.isLt; omega

/-- The mixed vector plus the pairwise sums. -/
theorem v25_row (r : Fin 500000) (c : Fin 64) :
    val_main_v25 (F := Ideal) x0 x2 x3 x4 x5 x7 x8 x10 x11 x14 (ix2 r c)
      = act x10 cat₂[r] c + pairsum rfl cat₂[r] c := by
  rw [val_main_v25_apply, Ideal.addf_def,
    v22_row x0 x2 x3 x4 x5 x6 x7 x8 x9 x10 x11 x12 x13 x14,
    v24_row x0 x2 x3 x4 x5 x6 x7 x8 x9 x10 x11 x12 x13 x14]

/-- The decoder stage's output. -/
theorem v27_row (r : Fin 500000) (c : Fin 32) :
    val_main_v27 (F := Ideal) x0 x2 x3 x4 x5 x7 x8 x10 x11 x13 x14 (ix2 r c) = d2 Wt row[r] c := by
  rw [val_main_v27_apply, Ideal.maximumf_def, call9_zero, val_main_v26_apply]
  refine act_of (B := 500000) (K := 64) (N := 32) (val_main_v25 (F := Ideal) x0 x2 x3 x4 x5 x7 x8 x10 x11 x14) x13 _ r c
    (fun k => v25_row x0 x2 x3 x4 x5 x6 x7 x8 x9 x10 x11 x12 x13 x14 r k)
    (lidx_main_v26 (ix2 r c)) (ridx_main_v26 (ix2 r c)) (fun k => ?_) (fun k => ?_)
  · exact idx2_ext (lidx_main_v26 (ix2 r c) k) r k rfl rfl
  · exact idx2_ext (ridx_main_v26 (ix2 r c) k) k c rfl rfl

/-- The narrowest stage's lateral vector. -/
theorem v29_row (r : Fin 500000) (c : Fin 32) :
    val_main_v29 (F := Ideal) x0 x2 x3 x6 (ix2 r c) = act x6 (e1 Wt row[r]) c := by
  rw [val_main_v29_apply, Ideal.maximumf_def, call10_zero, val_main_v28_apply]
  refine act_of (B := 500000) (K := 32) (N := 32) (val_main_v3 (F := Ideal) x0 x2 x3) x6 _ r c
    (fun k => v3_row x0 x2 x3 x4 x5 x6 x7 x8 x9 x10 x11 x12 x13 x14 r k)
    (lidx_main_v28 (ix2 r c)) (ridx_main_v28 (ix2 r c)) (fun k => ?_) (fun k => ?_)
  · exact idx2_ext (lidx_main_v28 (ix2 r c) k) r k rfl rfl
  · exact idx2_ext (ridx_main_v28 (ix2 r c) k) k c rfl rfl

/-- The running vector and the lateral vector side by side. -/
theorem v30_row (r : Fin 500000) (j : Fin 64) :
    val_main_v30 (F := Ideal) x0 x2 x3 x4 x5 x6 x7 x8 x10 x11 x13 x14 (ix2 r j) = cat₁[r] j :=
  cat_of (B := 500000) (A := 32) (A' := 32) (C := 64) rfl
    (val_main_v27 (F := Ideal) x0 x2 x3 x4 x5 x7 x8 x10 x11 x13 x14)
    (val_main_v29 (F := Ideal) x0 x2 x3 x6)
    concatenates_S500000x32_S500000x32_S500000x64_d1 (d2 Wt row[r]) (act x6 (e1 Wt row[r])) r
    (fun k => v27_row x0 x2 x3 x4 x5 x6 x7 x8 x9 x10 x11 x12 x13 x14 r k)
    (fun k => v29_row x0 x2 x3 x4 x5 x6 x7 x8 x9 x10 x11 x12 x13 x14 r k) j

/-- The product of the joined vector with the mixing matrix, and the maximum with zero. -/
theorem v32_row (r : Fin 500000) (c : Fin 32) :
    val_main_v32 (F := Ideal) x0 x2 x3 x4 x5 x6 x7 x8 x9 x10 x11 x13 x14 (ix2 r c) = act x9 cat₁[r] c := by
  rw [val_main_v32_apply, Ideal.maximumf_def, call11_zero, val_main_v31_apply]
  refine act_of (B := 500000) (K := 64) (N := 32) (val_main_v30 (F := Ideal) x0 x2 x3 x4 x5 x6 x7 x8 x10 x11 x13 x14) x9 _ r c
    (fun k => v30_row x0 x2 x3 x4 x5 x6 x7 x8 x9 x10 x11 x12 x13 x14 r k)
    (lidx_main_v31 (ix2 r c)) (ridx_main_v31 (ix2 r c)) (fun k => ?_) (fun k => ?_)
  · exact idx2_ext (lidx_main_v31 (ix2 r c) k) r k rfl rfl
  · exact idx2_ext (ridx_main_v31 (ix2 r c) k) k c rfl rfl

/-- The reshape to pairs followed by the sum over each pair adds the neighbouring entries 2c and 2c + 1 of the row: the
    pair (c, t) of the row r sits at the flat position (r · 32 + c) · 2 + t, which is the column 2c + t of the row r. -/
theorem v34_row (r : Fin 500000) (c : Fin 32) :
    val_main_v34 (F := Ideal) x0 x2 x3 x4 x5 x6 x7 x8 x10 x11 x13 x14 (ix2 r c) = pairsum rfl cat₁[r] c := by
  rw [val_main_v34_apply]
  refine pairsum_of (B := 500000) (N := 64) (C := 32) rfl
    (val_main_v30 (F := Ideal) x0 x2 x3 x4 x5 x6 x7 x8 x10 x11 x13 x14) cat₁[r] r c
    (fun j => v30_row x0 x2 x3 x4 x5 x6 x7 x8 x9 x10 x11 x12 x13 x14 r j) _
    (by rw [val_main_cst_1_apply]; exact Ideal.ofBits_zero_f32)
    (fun t => val_main_v33 (F := Ideal) x0 x2 x3 x4 x5 x6 x7 x8 x10 x11 x13 x14 (idx_main_v34 (ix2 r c) t))
    (fun t => idx_main_v33 (idx_main_v34 (ix2 r c) t))
    (fun t => val_main_v33_apply x0 x2 x3 x4 x5 x6 x7 x8 x10 x11 x13 x14 (idx_main_v34 (ix2 r c) t)) (fun t => ⟨?_, ?_⟩)
  · show ((r.val * 32 + c.val) * 2 + t.val) / 64 = r.val
    have := c.isLt; have := t.isLt; omega
  · show ((r.val * 32 + c.val) * 2 + t.val) % 64 = 2 * c.val + t.val
    have := c.isLt; have := t.isLt; omega

/-- The mixed vector plus the pairwise sums. -/
theorem v35_row (r : Fin 500000) (c : Fin 32) :
    val_main_v35 (F := Ideal) x0 x2 x3 x4 x5 x6 x7 x8 x9 x10 x11 x13 x14 (ix2 r c)
      = act x9 cat₁[r] c + pairsum rfl cat₁[r] c := by
  rw [val_main_v35_apply, Ideal.addf_def,
    v32_row x0 x2 x3 x4 x5 x6 x7 x8 x9 x10 x11 x12 x13 x14,
    v34_row x0 x2 x3 x4 x5 x6 x7 x8 x9 x10 x11 x12 x13 x14]

/-- The decoder stage's output. -/
theorem v37_row (r : Fin 500000) (c : Fin 32) :
    val_main_v37 (F := Ideal) x0 x2 x3 x4 x5 x6 x7 x8 x9 x10 x11 x12 x13 x14 (ix2 r c) = net Wt row[r] c := by
  rw [val_main_v37_apply, Ideal.maximumf_def, call12_zero, val_main_v36_apply]
  refine act_of (B := 500000) (K := 32) (N := 32) (val_main_v35 (F := Ideal) x0 x2 x3 x4 x5 x6 x7 x8 x9 x10 x11 x13 x14) x12 _ r c
    (fun k => v35_row x0 x2 x3 x4 x5 x6 x7 x8 x9 x10 x11 x12 x13 x14 r k)
    (lidx_main_v36 (ix2 r c)) (ridx_main_v36 (ix2 r c)) (fun k => ?_) (fun k => ?_)
  · exact idx2_ext (lidx_main_v36 (ix2 r c) k) r k rfl rfl
  · exact idx2_ext (ridx_main_v36 (ix2 r c) k) k c rfl rfl

/-- The reference program's result is the per-row network applied to every row of the features. -/
theorem ref_eq :
    val_main_v37 (F := Ideal) x0 x2 x3 x4 x5 x6 x7 x8 x9 x10 x11 x12 x13 x14 = RowNet.G ⟨x2, x3, x4, x5, x6, x7, x8, x9, x10, x11, x12, x13, x14⟩ x0 := by
  funext i
  obtain ⟨r, c, rfl⟩ : ∃ (r : Fin 500000) (c : Fin 32), i = ix2 r c := ⟨i 0, i 1, eq_ix2 i⟩
  rw [v37_row x0 x2 x3 x4 x5 x6 x7 x8 x9 x10 x11 x12 x13 x14 r c, RowNet.G_apply]

end Cert.ReferenceIdeal.RefRows

end
-- ==== Proof.lean ====
/-
  The kernel is a per-row network on 500000 rows of 16 features: four layers "row times matrix, maximum with zero"
  (the encoder), then three decoder stages, each joining the running vector with a lateral vector, applying a merge
  layer and adding the sums of neighbouring entries of the joined vector, and an upsampling layer. The reference
  computes every matrix product separately and the neighbour sums by a reshape and a sum over the last axis. The kernel
  works on blocks of 4000 rows, joins matrices that share their left factor column-wise before the call and cuts the
  joint products apart afterwards, and obtains the neighbour sums as a product with a 0/1 matrix.

  On the extended reals both are the same function of the arguments, row by row: a product with a column-wise join cut
  back apart is the two products (an index fact), and a product with the 0/1 matrix whose entry (j, c) is one exactly
  when j / 2 = c is the sum of entries 2c and 2c + 1, because x · 1 = x and x · 0 = 0 hold for every extended real and
  addition is commutative and associative there; no finiteness of the inputs is used.

  LibRowNet.lean states the network per row (net) and its fused arrangement (netK); LibRowFuse.lean proves netK of the fused
  matrices is net; LibRowTile.lean and KerRows.lean read the kernel body's block entry by entry as netK of the entry's row;
  Prep.lean reads the eleven arrays the call receives as the fused matrices; Final.lean tiles the blocks into the result
  array; RefRows.lean reads the reference's result entry by entry as net of the entry's row. The frames are the generated
  ones; the idealization rewrote nothing.
-/
import proofs.«171480_j6889127543366_2_alg».proof.Defs
import proofs.«171480_j6889127543366_2_alg».proof.Proof.Gen.Kernel
import proofs.«171480_j6889127543366_2_alg».proof.Proof.Gen.Kernel.Skeleton
import proofs.«171480_j6889127543366_2_alg».proof.Proof.Gen.Kernel.Launch
import proofs.«171480_j6889127543366_2_alg».proof.Proof.Gen.Kernel.Points
import proofs.«171480_j6889127543366_2_alg».proof.Proof.Gen.Kernel.Frame
import proofs.«171480_j6889127543366_2_alg».proof.Proof.Gen.KernelIdeal
import proofs.«171480_j6889127543366_2_alg».proof.Proof.Gen.KernelIdeal.Skeleton
import proofs.«171480_j6889127543366_2_alg».proof.Proof.Gen.KernelIdeal.Launch
import proofs.«171480_j6889127543366_2_alg».proof.Proof.Gen.KernelIdeal.Points
import proofs.«171480_j6889127543366_2_alg».proof.Proof.Gen.KernelIdeal.Frame
import proofs.«171480_j6889127543366_2_alg».proof.Proof.Gen.ReferenceIdeal
import proofs.«171480_j6889127543366_2_alg».proof.Proof.Gen.Pre_finite_inputs
import proofs.«171480_j6889127543366_2_alg».proof.Proof.Gen.KernelIdeal.Value
import proofs.«171480_j6889127543366_2_alg».proof.Proof.Gen.ReferenceIdeal.Run
import proofs.«171480_j6889127543366_2_alg».proof.Proof.Gen.ReferenceIdeal.Read
import proofs.«171480_j6889127543366_2_alg».proof.Proof.Final
import proofs.«171480_j6889127543366_2_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array holding, in row n, the network of row n of the feature array with the thirteen
    weights: the kernel's by the blocks (Final.final), the reference's by its stages (RefRows.ref_eq). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c,
    (θ_run Cert.KernelIdeal.defs _ _).mono (fun r h c => ⟨(h c).1.trans (Cert.KernelIdeal.Final.final m c), (h c).2⟩)
      (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v37_eq, Cert.ReferenceIdeal.RefRows.ref_eq, h0, h2, h3, h4, h5, h6, h7, h8, h9, h10, h11, h12, h13, h14]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
